-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S2048x1024 .f32) (main_arg5 : FVec F S2048x1024 .f32) (main_arg6 : FVec F S2048x1024 .f32) (main_arg7 : FVec F S1024 .f32) (main_arg8 : FVec F S1024 .f32) (main_arg9 : FVec F S1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S2048x1024 .f32) (main_arg5 : FVec F S2048x1024 .f32) (main_arg6 : FVec F S2048x1024 .f32) (main_arg7 : FVec F S1024 .f32) (main_arg8 : FVec F S1024 .f32) (main_arg9 : FVec F S1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S512x1024 : Shape := ⟨2, ![512, 1024]⟩
abbrev S1x1024 : Shape := ⟨2, ![1, 1024]⟩

abbrev nBuf : Space → Nat
  | .hbm => 29
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .bf16⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S1x4096, .f32⟩
  | .hbm, ⟨25, _⟩ => ⟨S8192x1024, .bf16⟩
  | .hbm, ⟨26, _⟩ => ⟨S8192x1024, .bf16⟩
  | .hbm, ⟨27, _⟩ => ⟨S8192x1024, .f32⟩
  | .hbm, ⟨28, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S2048x1024_S1024x1024_1024_0 : S2048x1024.Slices ![1024, 0] S1024x1024
  concatenates_S1024_S1024_S1024_S1024_S4096_d0 : Shape.Concatenates [S1024, S1024, S1024, S1024] S4096 0
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x1024_0_2048 : ∀ a, (![0, 2048] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_2048 : ∀ a, (![0, 2048] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S1024x4096_S1024x1024_0_0 : ∀ a, (![0, 0] : Fin 2 → Nat) a + S1024x1024.size a ≤ S1024x4096.size a
  inb_S1x4096_S1x1024_0_0 : ∀ a, (![0, 0] : Fin 2 → Nat) a + S1x1024.size a ≤ S1x4096.size a
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v14) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KernelHost.lean ====
/-
  The frame of the LSTM-cell program: every weakly fair execution of @main terminates without a fault and leaves the
  eleven argument arrays unchanged, and after it each of the two result arrays holds, block of 512 rows by block, what
  the kernel body stores at that grid point.

  @main is sixteen host operations (four row-halves of each gate's weight matrix joined column-wise and narrowed, the
  four bias vectors joined and made a row, the two activations narrowed) followed by one pallas_call on a grid of 16
  points. At point t the body is handed rows 512·t … 512·t+511 of x, h and c, the two whole weight arrays and the bias
  row, and stores a 512×1024 block of each result. The body reads the weight arrays through four column rectangles
  (one per gate) and never needs what its output buffers held.

  Stated for any float instance F, so that the same text serves the word-level program and the idealized one.
-/
import proofs.«119186_j42846593745221_2_alg».proof.Proof.Gen.Kernel.Launch
import proofs.«119186_j42846593745221_2_alg».proof.Proof.Gen.Kernel.Skeleton
import proofs.«119186_j42846593745221_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the sixteen host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the sixteen host operations writes is found by the region as launched: each operation writes
    its one result buffer, and the argument arrays are no operation's result. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

theorem V_main_arg0 (c : Dev nD) : V m c main_arg0 = m ((c : Thread nD τ).loc main_arg0) :=
  V_of_not_written m c main_arg0 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  V_of_not_written m c main_arg1 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  V_of_not_written m c main_arg2 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  V_of_not_written m c main_arg3 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  V_of_not_written m c main_arg4 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  V_of_not_written m c main_arg5 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  V_of_not_written m c main_arg6 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  V_of_not_written m c main_arg7 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  V_of_not_written m c main_arg8 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  V_of_not_written m c main_arg9 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  V_of_not_written m c main_arg10 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or not
    (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not
    (an unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not
    (an unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or not
    (an unfetched window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or not
    (an unfetched window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or not
    (an unfetched window's block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays after the run: `c` (window 2's array) is an input window's array, which the pipeline only
    reads; the other ten are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- A whole 512×1024 block. -/
abbrev rBlk : Rect S512x1024 := Rect.unit (s := S512x1024) ![0, 0] S512x1024.size inb_S512x1024_S512x1024_0_0
/-- The 1024 columns of a [1024, 4096] weight array that belong to the input, forget, cell and output gate. -/
abbrev rWi : Rect S1024x4096 := Rect.unit (s := S1024x4096) ![0, 0] S1024x1024.size inb_S1024x4096_S1024x1024_0_0
abbrev rWf : Rect S1024x4096 := Rect.unit (s := S1024x4096) ![0, 1024] S1024x1024.size inb_S1024x4096_S1024x1024_0_1024
abbrev rWg : Rect S1024x4096 := Rect.unit (s := S1024x4096) ![0, 2048] S1024x1024.size inb_S1024x4096_S1024x1024_0_2048
abbrev rWo : Rect S1024x4096 := Rect.unit (s := S1024x4096) ![0, 3072] S1024x1024.size inb_S1024x4096_S1024x1024_0_3072
/-- The same columns of the bias row. -/
abbrev rBi : Rect S1x4096 := Rect.unit (s := S1x4096) ![0, 0] S1x1024.size inb_S1x4096_S1x1024_0_0
abbrev rBf : Rect S1x4096 := Rect.unit (s := S1x4096) ![0, 1024] S1x1024.size inb_S1x4096_S1x1024_0_1024
abbrev rBg : Rect S1x4096 := Rect.unit (s := S1x4096) ![0, 2048] S1x1024.size inb_S1x4096_S1x1024_0_2048
abbrev rBo : Rect S1x4096 := Rect.unit (s := S1x4096) ![0, 3072] S1x1024.size inb_S1x4096_S1x1024_0_3072

/-! ## What the body stores -/

/-- The new cell state of a block: the second stored value, over the six input blocks. -/
def cellVal (x0 x1 : Vec F S512x1024 .bf16) (x2 : Vec F S512x1024 .f32) (x3 x4 : Vec F S1024x4096 .bf16) (x5 : Vec F S1x4096 .f32) : Vec F S512x1024 .f32 :=
  k0_pay1 (k0_pay3 (View.ld x0 rBlk)) (k0_pay4 (View.ld x1 rBlk)) (View.ld x2 rBlk)
    (k0_pay5 (View.ld x0 rBlk) (View.ld x1 rBlk) (View.ld x3 rWg) (View.ld x4 rWg) (View.ld x5 rBg) (View.ld x3 rWi) (View.ld x4 rWi) (View.ld x5 rBi))
    (k0_pay6 (View.ld x3 rWf)) (View.ld x4 rWf) (View.ld x5 rBf)

/-- The new hidden state of a block: the first stored value. -/
def hidVal (x0 x1 : Vec F S512x1024 .bf16) (x2 : Vec F S512x1024 .f32) (x3 x4 : Vec F S1024x4096 .bf16) (x5 : Vec F S1x4096 .f32) : Vec F S512x1024 .f32 :=
  k0_pay2 (k0_pay3 (View.ld x0 rBlk)) (k0_pay4 (View.ld x1 rBlk)) (View.ld x2 rBlk)
    (k0_pay5 (View.ld x0 rBlk) (View.ld x1 rBlk) (View.ld x3 rWg) (View.ld x4 rWg) (View.ld x5 rBg) (View.ld x3 rWi) (View.ld x4 rWi) (View.ld x5 rBi))
    (k0_pay6 (View.ld x3 rWf)) (View.ld x4 rWf) (View.ld x5 rBf) (View.ld x3 rWo) (View.ld x4 rWo) (View.ld x5 rBo)

/-- Window 6's staging buffer after the body: its one store, of the hidden state. -/
def out0_6 (x0 x1 : Vec F S512x1024 .bf16) (x2 : Vec F S512x1024 .f32) (x3 x4 : Vec F S1024x4096 .bf16) (x5 : Vec F S1x4096 .f32) : Vec F S512x1024 .f32 :=
  View.canon [⟨rBlk, hidVal x0 x1 x2 x3 x4 x5⟩]
/-- Window 7's staging buffer after the body: its one store, of the cell state. -/
def out0_7 (x0 x1 : Vec F S512x1024 .bf16) (x2 : Vec F S512x1024 .f32) (x3 x4 : Vec F S1024x4096 .bf16) (x5 : Vec F S1x4096 .f32) : Vec F S512x1024 .f32 :=
  View.canon [⟨rBlk, cellVal x0 x1 x2 x3 x4 x5⟩]

/-- A whole-block store covers the buffer. -/
theorem cover_blk (p0 : Vec F S512x1024 .f32) (y : S512x1024.Idx) :
    ∃ pc ∈ ([⟨rBlk, p0⟩] : List (View.Piece (Elt F) S512x1024 .f32)), y ∈ pc.1.set :=
  View.cover_of_tiled [⟨rBlk, p0⟩] S512x1024.size (by rfl) y

end Cert.Kernel.Hand

end
-- ==== Proof.KernelBody.lean ====
/-
  The kernel body's run and the frame of the LSTM-cell program (the second half of the frame proof): the body, handed
  its six input blocks, leaves the hidden-state block in window 6's buffer and the cell-state block in window 7's; with
  that, the pipeline's proof data, the body obligation at every grid point, the run of @main and the frame claim.
-/
import proofs.«119186_j42846593745221_2_alg».proof.Proof.KernelHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs — the six inputs' at contents `x0 … x5`, the two outputs' at anything —
    runs to the continuation holding the inputs' as they were, window 6's at the hidden state and window 7's at the
    cell state of the inputs. -/
theorem sound_kernel (c : Dev nD) (E : Set ℕ) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S512x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S512x1024 .f32) (harg7 : arg7.IsWhole) (arg8 : Memref sig .tc .vmem S512x1024 .f32) (harg8 : arg8.IsWhole)
    (x0 x1 : Vec F S512x1024 .bf16) (x2 : Vec F S512x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The pipeline's proof data -/

/-- The proof data of the pipeline on core `c`: the arrays as the region finds them; after the body at point `t` each
    input's buffer still at its block, window 6's at the hidden state and window 7's at the cell state of the input
    blocks; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data's write-backs leave and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KernelIdealHost.lean ====
/-
  The frame of the LSTM-cell program: every weakly fair execution of @main terminates without a fault and leaves the
  eleven argument arrays unchanged, and after it each of the two result arrays holds, block of 512 rows by block, what
  the kernel body stores at that grid point.

  @main is sixteen host operations (four row-halves of each gate's weight matrix joined column-wise and narrowed, the
  four bias vectors joined and made a row, the two activations narrowed) followed by one pallas_call on a grid of 16
  points. At point t the body is handed rows 512·t … 512·t+511 of x, h and c, the two whole weight arrays and the bias
  row, and stores a 512×1024 block of each result. The body reads the weight arrays through four column rectangles
  (one per gate) and never needs what its output buffers held.

  Stated for any float instance F, so that the same text serves the word-level program and the idealized one.
-/
import proofs.«119186_j42846593745221_2_alg».proof.Proof.Gen.KernelIdeal.Launch
import proofs.«119186_j42846593745221_2_alg».proof.Proof.Gen.KernelIdeal.Skeleton
import proofs.«119186_j42846593745221_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the sixteen host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the sixteen host operations writes is found by the region as launched: each operation writes
    its one result buffer, and the argument arrays are no operation's result. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

theorem V_main_arg0 (c : Dev nD) : V m c main_arg0 = m ((c : Thread nD τ).loc main_arg0) :=
  V_of_not_written m c main_arg0 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  V_of_not_written m c main_arg1 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  V_of_not_written m c main_arg2 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  V_of_not_written m c main_arg3 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  V_of_not_written m c main_arg4 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  V_of_not_written m c main_arg5 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  V_of_not_written m c main_arg6 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  V_of_not_written m c main_arg7 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  V_of_not_written m c main_arg8 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  V_of_not_written m c main_arg9 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  V_of_not_written m c main_arg10 (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or not
    (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not
    (an unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not
    (an unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or not
    (an unfetched window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or not
    (an unfetched window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or not
    (an unfetched window's block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays after the run: `c` (window 2's array) is an input window's array, which the pipeline only
    reads; the other ten are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- A whole 512×1024 block. -/
abbrev rBlk : Rect S512x1024 := Rect.unit (s := S512x1024) ![0, 0] S512x1024.size inb_S512x1024_S512x1024_0_0
/-- The 1024 columns of a [1024, 4096] weight array that belong to the input, forget, cell and output gate. -/
abbrev rWi : Rect S1024x4096 := Rect.unit (s := S1024x4096) ![0, 0] S1024x1024.size inb_S1024x4096_S1024x1024_0_0
abbrev rWf : Rect S1024x4096 := Rect.unit (s := S1024x4096) ![0, 1024] S1024x1024.size inb_S1024x4096_S1024x1024_0_1024
abbrev rWg : Rect S1024x4096 := Rect.unit (s := S1024x4096) ![0, 2048] S1024x1024.size inb_S1024x4096_S1024x1024_0_2048
abbrev rWo : Rect S1024x4096 := Rect.unit (s := S1024x4096) ![0, 3072] S1024x1024.size inb_S1024x4096_S1024x1024_0_3072
/-- The same columns of the bias row. -/
abbrev rBi : Rect S1x4096 := Rect.unit (s := S1x4096) ![0, 0] S1x1024.size inb_S1x4096_S1x1024_0_0
abbrev rBf : Rect S1x4096 := Rect.unit (s := S1x4096) ![0, 1024] S1x1024.size inb_S1x4096_S1x1024_0_1024
abbrev rBg : Rect S1x4096 := Rect.unit (s := S1x4096) ![0, 2048] S1x1024.size inb_S1x4096_S1x1024_0_2048
abbrev rBo : Rect S1x4096 := Rect.unit (s := S1x4096) ![0, 3072] S1x1024.size inb_S1x4096_S1x1024_0_3072

/-! ## What the body stores -/

/-- The new cell state of a block: the second stored value, over the six input blocks. -/
def cellVal (x0 x1 : Vec F S512x1024 .bf16) (x2 : Vec F S512x1024 .f32) (x3 x4 : Vec F S1024x4096 .bf16) (x5 : Vec F S1x4096 .f32) : Vec F S512x1024 .f32 :=
  k0_pay1 (k0_pay3 (View.ld x0 rBlk)) (k0_pay4 (View.ld x1 rBlk)) (View.ld x2 rBlk)
    (k0_pay5 (View.ld x0 rBlk) (View.ld x1 rBlk) (View.ld x3 rWg) (View.ld x4 rWg) (View.ld x5 rBg) (View.ld x3 rWi) (View.ld x4 rWi) (View.ld x5 rBi))
    (k0_pay6 (View.ld x3 rWf)) (View.ld x4 rWf) (View.ld x5 rBf)

/-- The new hidden state of a block: the first stored value. -/
def hidVal (x0 x1 : Vec F S512x1024 .bf16) (x2 : Vec F S512x1024 .f32) (x3 x4 : Vec F S1024x4096 .bf16) (x5 : Vec F S1x4096 .f32) : Vec F S512x1024 .f32 :=
  k0_pay2 (k0_pay3 (View.ld x0 rBlk)) (k0_pay4 (View.ld x1 rBlk)) (View.ld x2 rBlk)
    (k0_pay5 (View.ld x0 rBlk) (View.ld x1 rBlk) (View.ld x3 rWg) (View.ld x4 rWg) (View.ld x5 rBg) (View.ld x3 rWi) (View.ld x4 rWi) (View.ld x5 rBi))
    (k0_pay6 (View.ld x3 rWf)) (View.ld x4 rWf) (View.ld x5 rBf) (View.ld x3 rWo) (View.ld x4 rWo) (View.ld x5 rBo)

/-- Window 6's staging buffer after the body: its one store, of the hidden state. -/
def out0_6 (x0 x1 : Vec F S512x1024 .bf16) (x2 : Vec F S512x1024 .f32) (x3 x4 : Vec F S1024x4096 .bf16) (x5 : Vec F S1x4096 .f32) : Vec F S512x1024 .f32 :=
  View.canon [⟨rBlk, hidVal x0 x1 x2 x3 x4 x5⟩]
/-- Window 7's staging buffer after the body: its one store, of the cell state. -/
def out0_7 (x0 x1 : Vec F S512x1024 .bf16) (x2 : Vec F S512x1024 .f32) (x3 x4 : Vec F S1024x4096 .bf16) (x5 : Vec F S1x4096 .f32) : Vec F S512x1024 .f32 :=
  View.canon [⟨rBlk, cellVal x0 x1 x2 x3 x4 x5⟩]

/-- A whole-block store covers the buffer. -/
theorem cover_blk (p0 : Vec F S512x1024 .f32) (y : S512x1024.Idx) :
    ∃ pc ∈ ([⟨rBlk, p0⟩] : List (View.Piece (Elt F) S512x1024 .f32)), y ∈ pc.1.set :=
  View.cover_of_tiled [⟨rBlk, p0⟩] S512x1024.size (by rfl) y

end Cert.KernelIdeal.Hand

end
-- ==== Proof.KernelIdealBody.lean ====
/-
  The kernel body's run and the frame of the LSTM-cell program (the second half of the frame proof): the body, handed
  its six input blocks, leaves the hidden-state block in window 6's buffer and the cell-state block in window 7's; with
  that, the pipeline's proof data, the body obligation at every grid point, the run of @main and the frame claim.
-/
import proofs.«119186_j42846593745221_2_alg».proof.Proof.KernelIdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs — the six inputs' at contents `x0 … x5`, the two outputs' at anything —
    runs to the continuation holding the inputs' as they were, window 6's at the hidden state and window 7's at the
    cell state of the inputs. -/
theorem sound_kernel (c : Dev nD) (E : Set ℕ) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S512x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S512x1024 .f32) (harg7 : arg7.IsWhole) (arg8 : Memref sig .tc .vmem S512x1024 .f32) (harg8 : arg8.IsWhole)
    (x0 x1 : Vec F S512x1024 .bf16) (x2 : Vec F S512x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The pipeline's proof data -/

/-- The proof data of the pipeline on core `c`: the arrays as the region finds them; after the body at point `t` each
    input's buffer still at its block, window 6's at the hidden state and window 7's at the cell state of the input
    blocks; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data's write-backs leave and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.BlockReads.lean ====
/-
  Where each window's block sits in its array. The grid has 16 points; at point t the windows of x, h, c and of the two
  results hold rows 512·t … 512·t+511 (all 1024 columns), and the windows of the two weight arrays and of the bias row
  hold the whole array. So a block's entry (r, k) is the array's entry (512·t + r, k), respectively (r, k) itself, and
  every row p of a result array lies in the block of point p / 512.
-/
import proofs.«119186_j42846593745221_2_alg».proof.Proof.KernelIdealHost
import Idealize.ShloMosaic.Lib.Pipeline.Value
import Idealize.ShloMosaic.Lib.ValueIdx

noncomputable section

namespace Cert.KernelIdeal.Blocks

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- The printed index maps, decided over the 16 grid points: the row-blocked windows are at block (t, 0), the
    resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := by have := t.isLt; have h : cfg0.N = 16 := N_0; omega

/-- Row r of the block at point t is row 512·t + r of the array. -/
abbrev row (t : Fin cfg0.N) (r : Fin 512) : Fin 8192 := ⟨512 * t.val + r.val, by have := t_lt t; omega⟩

/-- The block of x at point t. -/
theorem iblk0_apply (t : Fin cfg0.N) (r : Fin 512) (k : Fin 1024) :
    iblk m c 0 t (ix2 r k) = V m c main_v14 (ix2 (row t r) k) := by
  show V m c main_v14 (((cfg0.win 0).blk t).view.emb (ix2 r k)) = _
  refine congrArg _ ?_
  obtain ⟨e0, e1, -⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

/-- The block of h at point t. -/
theorem iblk1_apply (t : Fin cfg0.N) (r : Fin 512) (k : Fin 1024) :
    iblk m c 1 t (ix2 r k) = V m c main_v15 (ix2 (row t r) k) := by
  show V m c main_v15 (((cfg0.win 1).blk t).view.emb (ix2 r k)) = _
  refine congrArg _ ?_
  obtain ⟨-, -, e0, e1, -⟩ := idx_facts t
  funext a; apply Fin.ext
  match a with
  | ⟨0, _⟩ => show win0_1.index t (0 : Fin 2) * 512 + 1 * r.val = 512 * t.val + r.val; omega
  | ⟨1, _⟩ => show win0_1.index t (1 : Fin 2) * 1024 + 1 * k.val = k.val; omega

/-- The block of c at point t. -/
theorem iblk2_apply (t : Fin cfg0.N) (r : Fin 512) (k : Fin 1024) :
    iblk m c 2 t (ix2 r k) = V m c main_arg2 (ix2 (row t r) k) := by
  show V m c main_arg2 (((cfg0.win 2).blk t).view.emb (ix2 r k)) = _
  refine congrArg _ ?_
  obtain ⟨-, -, -, -, e0, e1, -⟩ := idx_facts t
  funext a; apply Fin.ext
  match a with
  | ⟨0, _⟩ => show win0_2.index t (0 : Fin 2) * 512 + 1 * r.val = 512 * t.val + r.val; omega
  | ⟨1, _⟩ => show win0_2.index t (1 : Fin 2) * 1024 + 1 * k.val = k.val; omega

/-- The weights that meet x: the whole array at every point. -/
theorem iblk3_apply (t : Fin cfg0.N) (k : Fin 1024) (j : Fin 4096) :
    iblk m c 3 t (ix2 k j) = V m c main_v5 (ix2 k j) := by
  show V m c main_v5 (((cfg0.win 3).blk t).view.emb (ix2 k j)) = _
  refine congrArg _ ?_
  obtain ⟨-, -, -, -, -, -, e0, e1, -⟩ := idx_facts t
  funext a; apply Fin.ext
  match a with
  | ⟨0, _⟩ => show win0_3.index t (0 : Fin 2) * 1024 + 1 * k.val = k.val; omega
  | ⟨1, _⟩ => show win0_3.index t (1 : Fin 2) * 4096 + 1 * j.val = j.val; omega

/-- The weights that meet h: the whole array at every point. -/
theorem iblk4_apply (t : Fin cfg0.N) (k : Fin 1024) (j : Fin 4096) :
    iblk m c 4 t (ix2 k j) = V m c main_v11 (ix2 k j) := by
  show V m c main_v11 (((cfg0.win 4).blk t).view.emb (ix2 k j)) = _
  refine congrArg _ ?_
  obtain ⟨-, -, -, -, -, -, -, -, e0, e1, -⟩ := idx_facts t
  funext a; apply Fin.ext
  match a with
  | ⟨0, _⟩ => show win0_4.index t (0 : Fin 2) * 1024 + 1 * k.val = k.val; omega
  | ⟨1, _⟩ => show win0_4.index t (1 : Fin 2) * 4096 + 1 * j.val = j.val; omega

/-- The bias row: the whole row at every point. -/
theorem iblk5_apply (t : Fin cfg0.N) (z : Fin 1) (j : Fin 4096) :
    iblk m c 5 t (ix2 z j) = V m c main_v13 (ix2 z j) := by
  show V m c main_v13 (((cfg0.win 5).blk t).view.emb (ix2 z j)) = _
  refine congrArg _ ?_
  obtain ⟨-, -, -, -, -, -, -, -, -, -, e0, e1, -⟩ := idx_facts t
  funext a; apply Fin.ext
  match a with
  | ⟨0, _⟩ => show win0_5.index t (0 : Fin 2) * 1 + 1 * z.val = z.val; omega
  | ⟨1, _⟩ => show win0_5.index t (1 : Fin 2) * 4096 + 1 * j.val = j.val; omega

/-- Entry (r, q) of result window 6's block at point t is entry (512·t + r, q) of its array. -/
theorem emb6 (t : Fin cfg0.N) (r : Fin 512) (q : Fin 1024) :
    ((cfg0.win 6).blk t).view.emb (ix2 r q) = ix2 (row t r) q := by
  obtain ⟨-, -, -, -, -, -, -, -, -, -, -, -, e0, e1, -⟩ := idx_facts t
  funext a; apply Fin.ext
  match a with
  | ⟨0, _⟩ => show win0_6.index t (0 : Fin 2) * 512 + 1 * r.val = 512 * t.val + r.val; omega
  | ⟨1, _⟩ => show win0_6.index t (1 : Fin 2) * 1024 + 1 * q.val = q.val; omega

/-- The same for result window 7. -/
theorem emb7 (t : Fin cfg0.N) (r : Fin 512) (q : Fin 1024) :
    ((cfg0.win 7).blk t).view.emb (ix2 r q) = ix2 (row t r) q := by
  obtain ⟨-, -, -, -, -, -, -, -, -, -, -, -, -, -, e0, e1⟩ := idx_facts t
  funext a; apply Fin.ext
  match a with
  | ⟨0, _⟩ => show win0_7.index t (0 : Fin 2) * 512 + 1 * r.val = 512 * t.val + r.val; omega
  | ⟨1, _⟩ => show win0_7.index t (1 : Fin 2) * 1024 + 1 * q.val = q.val; omega

/-- An index of result array 6 is in point t's block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v16_0).slice (win0_6.rect t)).set ↔ _
  rw [View.set_slice_whole, Rect.mem_set_unit]
  exact Iff.rfl

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v16_1).slice (win0_7.rect t)).set ↔ _
  rw [View.set_slice_whole, Rect.mem_set_unit]
  exact Iff.rfl

/-- Every index of result array 6 is in the block of the point that holds its row: point (row / 512). -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 16 := N_0
  refine ⟨⟨(i 0).val / 512, by omega⟩, flush0_6 _, ?_⟩
  rw [mem_blk6]
  obtain ⟨-, -, -, -, -, -, -, -, -, -, -, -, e0, e1, -⟩ := idx_facts ⟨(i 0).val / 512, by omega⟩
  intro a
  match a with
  | ⟨0, _⟩ => show win0_6.index _ (0 : Fin 2) * 512 ≤ (i 0).val ∧ (i 0).val < win0_6.index _ (0 : Fin 2) * 512 + 512; rw [e0]; show (i 0).val / 512 * 512 ≤ (i 0).val ∧ (i 0).val < (i 0).val / 512 * 512 + 512; omega
  | ⟨1, _⟩ => show win0_6.index _ (1 : Fin 2) * 1024 ≤ (i 1).val ∧ (i 1).val < win0_6.index _ (1 : Fin 2) * 1024 + 1024; rw [e1]; omega

theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  refine ⟨⟨(i 0).val / 512, by omega⟩, flush0_7 _, ?_⟩
  rw [mem_blk7]
  obtain ⟨-, -, -, -, -, -, -, -, -, -, -, -, -, -, e0, e1⟩ := idx_facts ⟨(i 0).val / 512, by omega⟩
  intro a
  match a with
  | ⟨0, _⟩ => show win0_7.index _ (0 : Fin 2) * 512 ≤ (i 0).val ∧ (i 0).val < win0_7.index _ (0 : Fin 2) * 512 + 512; rw [e0]; show (i 0).val / 512 * 512 ≤ (i 0).val ∧ (i 0).val < (i 0).val / 512 * 512 + 512; omega
  | ⟨1, _⟩ => show win0_7.index _ (1 : Fin 2) * 1024 ≤ (i 1).val ∧ (i 1).val < win0_7.index _ (1 : Fin 2) * 1024 + 1024; rw [e1]; omega

end Cert.KernelIdeal.Blocks

end
-- ==== Proof.Spec.lean ====
/-
  The LSTM cell as one function of its eleven argument arrays, index by index, on the extended reals.

  For a batch row p and a unit q, each gate's pre-activation is

      z(W, b)(p, q) = Σ_{k<1024} x(p,k)·W(k,q) + Σ_{k<1024} h(p,k)·W(1024+k,q) + b(q),

  the weight matrix W : [2048, 1024] holding the rows that meet x on top of the rows that meet h. Then

      c'(p,q) = σ(z(W_f,b_f))·c(p,q) + σ(z(W_i,b_i))·tanh(z(W_g,b_g)),      h'(p,q) = σ(z(W_o,b_o))·tanh(c'(p,q)),

  with σ(t) = 1 / (1 + e^(−t)). The one law that relates the two programs is that a sum over 2048 consecutive
  positions is the sum over the first 1024 plus the sum over the last 1024 — true in any additive commutative monoid,
  so no entry needs to be finite.
-/
import Idealize.ShloMosaic.PureOps.Ideal
import Idealize.ShloMosaic.Lib.ValueIdx

noncomputable section

namespace Cert.Lstm

open Idealize.ShloMosaic Idealize.ShloMosaic.ValueIdx

/-- Position k of the first half of 2048 positions. -/
abbrev lo (k : Fin 1024) : Fin 2048 := ⟨k.val, by omega⟩
/-- Position k of the second half. -/
abbrev hi (k : Fin 1024) : Fin 2048 := ⟨1024 + k.val, by omega⟩

/-- A sum over d + d positions is the sum over the first d plus the sum over the last d. -/
theorem sum_two_halves {M : Type*} [AddCommMonoid M] (d n : ℕ) (hn : n = d + d) (f : Fin n → M) :
    ∑ k : Fin n, f k = ∑ k : Fin d, f ⟨k.val, by omega⟩ + ∑ k : Fin d, f ⟨d + k.val, by omega⟩ := by
  subst hn
  rw [Fin.sum_univ_add]
  rfl

/-- The same at 2048 = 1024 + 1024. -/
theorem sum_2048 {M : Type*} [AddCommMonoid M] (f : Fin 2048 → M) :
    ∑ k : Fin 2048, f k = ∑ k : Fin 1024, f (lo k) + ∑ k : Fin 1024, f (hi k) :=
  sum_two_halves 1024 2048 (by norm_num) f

/-- The word 0x3F800000 is the real 1. -/
theorem one_word : Ideal.ofBits .f32 0x3F800000#32 = (1 : EReal) := by
  simp [Ideal.ofBits, Ideal.ieee, -EReal.coe_mul]; norm_num

variable (x h c : (⟨2, ![8192, 1024]⟩ : Shape).Idx → EReal)

/-- A gate's pre-activation at batch row p and unit q. -/
def gate (W : (⟨2, ![2048, 1024]⟩ : Shape).Idx → EReal) (b : (⟨1, ![1024]⟩ : Shape).Idx → EReal)
    (p : Fin 8192) (q : Fin 1024) : EReal :=
  ((∑ k : Fin 1024, x (ix2 p k) * W (ix2 (lo k) q)) + ∑ k : Fin 1024, h (ix2 p k) * W (ix2 (hi k) q)) + b (ix1 q)

variable (Wi Wf Wg Wo : (⟨2, ![2048, 1024]⟩ : Shape).Idx → EReal) (bi bf bg bo : (⟨1, ![1024]⟩ : Shape).Idx → EReal)

/-- The new cell state. -/
def cellNew (p : Fin 8192) (q : Fin 1024) : EReal :=
  Ideal.logistic (gate x h Wf bf p q) * c (ix2 p q) + Ideal.logistic (gate x h Wi bi p q) * Ideal.tanh (gate x h Wg bg p q)

/-- The new hidden state. -/
def hidNew (p : Fin 8192) (q : Fin 1024) : EReal :=
  Ideal.logistic (gate x h Wo bo p q) * Ideal.tanh (cellNew x h c Wi Wf Wg bi bf bg p q)

/-- The two result arrays as whole-array functions. -/
def cellArr : (⟨2, ![8192, 1024]⟩ : Shape).Idx → EReal := fun j => cellNew x h c Wi Wf Wg bi bf bg (j 0) (j 1)
def hidArr : (⟨2, ![8192, 1024]⟩ : Shape).Idx → EReal := fun j => hidNew x h c Wi Wf Wg Wo bi bf bg bo (j 0) (j 1)

/-! ## One grid point: a block of 512 rows against the whole weight arrays

The kernel's body sees rows of x, h, c as a [512, 1024] block, the weights that meet x and the weights that meet h as
two [1024, 4096] arrays (gate g in columns 1024·g … 1024·g+1023) and the biases as one [1, 4096] row. -/

section Block

variable (y0 y1 y2 : (⟨2, ![512, 1024]⟩ : Shape).Idx → EReal) (y3 y4 : (⟨2, ![1024, 4096]⟩ : Shape).Idx → EReal)
  (y5 : (⟨2, ![1, 4096]⟩ : Shape).Idx → EReal)

/-- Column off + q of a 4096-column array, for a gate's offset off ≤ 3072. -/
abbrev col (off : ℕ) (hoff : off + 1024 ≤ 4096) (q : Fin 1024) : Fin 4096 := ⟨off + q.val, by omega⟩

/-- A gate's pre-activation inside a block: row r of the block, unit q, the gate's columns starting at off. -/
def blkGate (off : ℕ) (hoff : off + 1024 ≤ 4096) (r : Fin 512) (q : Fin 1024) : EReal :=
  ((∑ k : Fin 1024, y0 (ix2 r k) * y3 (ix2 k (col off hoff q))) + ∑ k : Fin 1024, y1 (ix2 r k) * y4 (ix2 k (col off hoff q)))
    + y5 (ix2 (0 : Fin 1) (col off hoff q))

/-- The block's new cell state: forget gate at columns 1024…, input gate at 0…, cell gate at 2048…. -/
def blkCell (r : Fin 512) (q : Fin 1024) : EReal :=
  Ideal.logistic (blkGate y0 y1 y3 y4 y5 1024 (by norm_num) r q) * y2 (ix2 r q)
    + Ideal.logistic (blkGate y0 y1 y3 y4 y5 0 (by norm_num) r q) * Ideal.tanh (blkGate y0 y1 y3 y4 y5 2048 (by norm_num) r q)

/-- The block's new hidden state: output gate at columns 3072…. -/
def blkHid (r : Fin 512) (q : Fin 1024) : EReal :=
  Ideal.logistic (blkGate y0 y1 y3 y4 y5 3072 (by norm_num) r q) * Ideal.tanh (blkCell y0 y1 y2 y3 y4 y5 r q)

end Block

end Cert.Lstm

end
-- ==== Proof.LibConcatBlocks.lean ====
/-
  Concatenations of equal blocks, read at an index, for any extents.

  A concatenation along an axis lays its pieces end to end on that axis. Read at an index, it is the piece whose span
  holds the index's coordinate on the joined axis, at the index with that coordinate reduced by the extents of the
  pieces before it and every other coordinate unchanged. The statements below spell this out for the three forms met
  when whole weight arrays are packed gate by gate: two [a, b] blocks side by side, four [a, b] blocks side by side,
  and four vectors of length n end to end. Each takes the index of the result as a variable together with equations
  for its coordinates, so that it applies to an index however it is written.
-/
import Idealize.ShloMosaic.Lib.Pipeline.Value
import Idealize.ShloMosaic.Lib.ValueIdx

namespace Cert.Lib.ConcatBlocks

open Idealize.ShloMosaic Idealize.ShloMosaic.ValueIdx

variable {α : Type}

/-! ## Two [a, b] blocks joined along axis 1 into [a, c] -/

/-- Two [a, b] blocks side by side: at row p and a column q below b, the result is the first block at (p, q). -/
theorem pair_axis1_left {a b c : Nat} (x₀ x₁ : (⟨2, ![a, b]⟩ : Shape).Idx → α)
    (h : Shape.Concatenates [(⟨2, ![a, b]⟩ : Shape), ⟨2, ![a, b]⟩] ⟨2, ![a, c]⟩ 1)
    (j : (⟨2, ![a, c]⟩ : Shape).Idx) (p : Fin a) (q : Fin b) (h0 : (j 0).val = p.val) (h1 : (j 1).val = q.val) :
    concatenate ⟨2, ![a, c]⟩ 1 [⟨⟨2, ![a, b]⟩, x₀⟩, ⟨⟨2, ![a, b]⟩, x₁⟩] h j = x₀ (ix2 p q) :=
  concatenate_pair_apply_left 1 x₀ x₁ h j rfl (ix2 p q) (fun d => match d with
    | ⟨0, _⟩ => h0.symm
    | ⟨1, _⟩ => h1.symm)

/-- Two [a, b] blocks side by side: at row p and column b + q, the result is the second block at (p, q). -/
theorem pair_axis1_right {a b c : Nat} (x₀ x₁ : (⟨2, ![a, b]⟩ : Shape).Idx → α)
    (h : Shape.Concatenates [(⟨2, ![a, b]⟩ : Shape), ⟨2, ![a, b]⟩] ⟨2, ![a, c]⟩ 1)
    (j : (⟨2, ![a, c]⟩ : Shape).Idx) (p : Fin a) (q : Fin b) (h0 : (j 0).val = p.val) (h1 : (j 1).val = b + q.val) :
    concatenate ⟨2, ![a, c]⟩ 1 [⟨⟨2, ![a, b]⟩, x₀⟩, ⟨⟨2, ![a, b]⟩, x₁⟩] h j = x₁ (ix2 p q) :=
  concatenate_pair_apply_right 1 x₀ x₁ h j rfl rfl (ix2 p q) (fun d => match d with
    | ⟨0, _⟩ => fun _ => h0.symm
    | ⟨1, _⟩ => fun hne => absurd rfl hne)
    (by show q.val + b = (j 1).val; omega)

/-! ## Four [a, b] blocks joined along axis 1 into [a, c] -/

/-- Four [a, b] blocks side by side: at row p and a column q below b, the result is the first block at (p, q). -/
theorem four_axis1_piece0 {a b c : Nat} (x₀ x₁ x₂ x₃ : (⟨2, ![a, b]⟩ : Shape).Idx → α)
    (h : Shape.Concatenates [(⟨2, ![a, b]⟩ : Shape), ⟨2, ![a, b]⟩, ⟨2, ![a, b]⟩, ⟨2, ![a, b]⟩] ⟨2, ![a, c]⟩ 1)
    (j : (⟨2, ![a, c]⟩ : Shape).Idx) (p : Fin a) (q : Fin b) (h0 : (j 0).val = p.val) (h1 : (j 1).val = q.val) :
    concatenate ⟨2, ![a, c]⟩ 1 [⟨⟨2, ![a, b]⟩, x₀⟩, ⟨⟨2, ![a, b]⟩, x₁⟩, ⟨⟨2, ![a, b]⟩, x₂⟩, ⟨⟨2, ![a, b]⟩, x₃⟩] h j
      = x₀ (ix2 p q) :=
  concatenate_apply_piece (t := ⟨2, ![a, c]⟩) 1 [⟨⟨2, ![a, b]⟩, x₀⟩, ⟨⟨2, ![a, b]⟩, x₁⟩, ⟨⟨2, ![a, b]⟩, x₂⟩, ⟨⟨2, ![a, b]⟩, x₃⟩] h j 0 (by simp) ⟨2, ![a, b]⟩ x₀ rfl rfl 0 rfl (ix2 p q)
    (fun d => match d with
      | ⟨0, _⟩ => fun _ => h0.symm
      | ⟨1, _⟩ => fun hne => absurd rfl hne)
    (by show 0 + q.val = (j 1).val; omega)

/-- Four [a, b] blocks side by side: at row p and column b + q, the result is the second block at (p, q). -/
theorem four_axis1_piece1 {a b c : Nat} (x₀ x₁ x₂ x₃ : (⟨2, ![a, b]⟩ : Shape).Idx → α)
    (h : Shape.Concatenates [(⟨2, ![a, b]⟩ : Shape), ⟨2, ![a, b]⟩, ⟨2, ![a, b]⟩, ⟨2, ![a, b]⟩] ⟨2, ![a, c]⟩ 1)
    (j : (⟨2, ![a, c]⟩ : Shape).Idx) (p : Fin a) (q : Fin b) (h0 : (j 0).val = p.val) (h1 : (j 1).val = b + q.val) :
    concatenate ⟨2, ![a, c]⟩ 1 [⟨⟨2, ![a, b]⟩, x₀⟩, ⟨⟨2, ![a, b]⟩, x₁⟩, ⟨⟨2, ![a, b]⟩, x₂⟩, ⟨⟨2, ![a, b]⟩, x₃⟩] h j
      = x₁ (ix2 p q) :=
  concatenate_apply_piece (t := ⟨2, ![a, c]⟩) 1 [⟨⟨2, ![a, b]⟩, x₀⟩, ⟨⟨2, ![a, b]⟩, x₁⟩, ⟨⟨2, ![a, b]⟩, x₂⟩, ⟨⟨2, ![a, b]⟩, x₃⟩] h j 1 (by simp) ⟨2, ![a, b]⟩ x₁ rfl rfl b (by simp) (ix2 p q)
    (fun d => match d with
      | ⟨0, _⟩ => fun _ => h0.symm
      | ⟨1, _⟩ => fun hne => absurd rfl hne)
    (by show b + q.val = (j 1).val; omega)

/-- Four [a, b] blocks side by side: at row p and column b + b + q, the result is the third block at (p, q). -/
theorem four_axis1_piece2 {a b c : Nat} (x₀ x₁ x₂ x₃ : (⟨2, ![a, b]⟩ : Shape).Idx → α)
    (h : Shape.Concatenates [(⟨2, ![a, b]⟩ : Shape), ⟨2, ![a, b]⟩, ⟨2, ![a, b]⟩, ⟨2, ![a, b]⟩] ⟨2, ![a, c]⟩ 1)
    (j : (⟨2, ![a, c]⟩ : Shape).Idx) (p : Fin a) (q : Fin b) (h0 : (j 0).val = p.val)
    (h1 : (j 1).val = b + b + q.val) :
    concatenate ⟨2, ![a, c]⟩ 1 [⟨⟨2, ![a, b]⟩, x₀⟩, ⟨⟨2, ![a, b]⟩, x₁⟩, ⟨⟨2, ![a, b]⟩, x₂⟩, ⟨⟨2, ![a, b]⟩, x₃⟩] h j
      = x₂ (ix2 p q) :=
  concatenate_apply_piece (t := ⟨2, ![a, c]⟩) 1 [⟨⟨2, ![a, b]⟩, x₀⟩, ⟨⟨2, ![a, b]⟩, x₁⟩, ⟨⟨2, ![a, b]⟩, x₂⟩, ⟨⟨2, ![a, b]⟩, x₃⟩] h j 2 (by simp) ⟨2, ![a, b]⟩ x₂ rfl rfl (b + b) (by simp) (ix2 p q)
    (fun d => match d with
      | ⟨0, _⟩ => fun _ => h0.symm
      | ⟨1, _⟩ => fun hne => absurd rfl hne)
    (by show b + b + q.val = (j 1).val; omega)

/-- Four [a, b] blocks side by side: at row p and column b + b + b + q, the result is the fourth block at (p, q). -/
theorem four_axis1_piece3 {a b c : Nat} (x₀ x₁ x₂ x₃ : (⟨2, ![a, b]⟩ : Shape).Idx → α)
    (h : Shape.Concatenates [(⟨2, ![a, b]⟩ : Shape), ⟨2, ![a, b]⟩, ⟨2, ![a, b]⟩, ⟨2, ![a, b]⟩] ⟨2, ![a, c]⟩ 1)
    (j : (⟨2, ![a, c]⟩ : Shape).Idx) (p : Fin a) (q : Fin b) (h0 : (j 0).val = p.val)
    (h1 : (j 1).val = b + b + b + q.val) :
    concatenate ⟨2, ![a, c]⟩ 1 [⟨⟨2, ![a, b]⟩, x₀⟩, ⟨⟨2, ![a, b]⟩, x₁⟩, ⟨⟨2, ![a, b]⟩, x₂⟩, ⟨⟨2, ![a, b]⟩, x₃⟩] h j
      = x₃ (ix2 p q) :=
  concatenate_apply_piece (t := ⟨2, ![a, c]⟩) 1 [⟨⟨2, ![a, b]⟩, x₀⟩, ⟨⟨2, ![a, b]⟩, x₁⟩, ⟨⟨2, ![a, b]⟩, x₂⟩, ⟨⟨2, ![a, b]⟩, x₃⟩] h j 3 (by simp) ⟨2, ![a, b]⟩ x₃ rfl rfl (b + b + b) (by simp; omega) (ix2 p q)
    (fun d => match d with
      | ⟨0, _⟩ => fun _ => h0.symm
      | ⟨1, _⟩ => fun hne => absurd rfl hne)
    (by show b + b + b + q.val = (j 1).val; omega)

/-! ## Four vectors of length n joined end to end into one of length m -/

/-- Four vectors end to end: at a position q below n, the result is the first vector at q. -/
theorem four_axis0_piece0 {n m : Nat} (x₀ x₁ x₂ x₃ : (⟨1, ![n]⟩ : Shape).Idx → α)
    (h : Shape.Concatenates [(⟨1, ![n]⟩ : Shape), ⟨1, ![n]⟩, ⟨1, ![n]⟩, ⟨1, ![n]⟩] ⟨1, ![m]⟩ 0)
    (j : (⟨1, ![m]⟩ : Shape).Idx) (q : Fin n) (h0 : (j 0).val = q.val) :
    concatenate ⟨1, ![m]⟩ 0 [⟨⟨1, ![n]⟩, x₀⟩, ⟨⟨1, ![n]⟩, x₁⟩, ⟨⟨1, ![n]⟩, x₂⟩, ⟨⟨1, ![n]⟩, x₃⟩] h j = x₀ (ix1 q) :=
  concatenate_apply_piece (t := ⟨1, ![m]⟩) 0 [⟨⟨1, ![n]⟩, x₀⟩, ⟨⟨1, ![n]⟩, x₁⟩, ⟨⟨1, ![n]⟩, x₂⟩, ⟨⟨1, ![n]⟩, x₃⟩] h j 0 (by simp) ⟨1, ![n]⟩ x₀ rfl rfl 0 rfl (ix1 q)
    (fun d => match d with
      | ⟨0, _⟩ => fun hne => absurd rfl hne)
    (by show 0 + q.val = (j 0).val; omega)

/-- Four vectors end to end: at position n + q, the result is the second vector at q. -/
theorem four_axis0_piece1 {n m : Nat} (x₀ x₁ x₂ x₃ : (⟨1, ![n]⟩ : Shape).Idx → α)
    (h : Shape.Concatenates [(⟨1, ![n]⟩ : Shape), ⟨1, ![n]⟩, ⟨1, ![n]⟩, ⟨1, ![n]⟩] ⟨1, ![m]⟩ 0)
    (j : (⟨1, ![m]⟩ : Shape).Idx) (q : Fin n) (h0 : (j 0).val = n + q.val) :
    concatenate ⟨1, ![m]⟩ 0 [⟨⟨1, ![n]⟩, x₀⟩, ⟨⟨1, ![n]⟩, x₁⟩, ⟨⟨1, ![n]⟩, x₂⟩, ⟨⟨1, ![n]⟩, x₃⟩] h j = x₁ (ix1 q) :=
  concatenate_apply_piece (t := ⟨1, ![m]⟩) 0 [⟨⟨1, ![n]⟩, x₀⟩, ⟨⟨1, ![n]⟩, x₁⟩, ⟨⟨1, ![n]⟩, x₂⟩, ⟨⟨1, ![n]⟩, x₃⟩] h j 1 (by simp) ⟨1, ![n]⟩ x₁ rfl rfl n (by simp) (ix1 q)
    (fun d => match d with
      | ⟨0, _⟩ => fun hne => absurd rfl hne)
    (by show n + q.val = (j 0).val; omega)

/-- Four vectors end to end: at position n + n + q, the result is the third vector at q. -/
theorem four_axis0_piece2 {n m : Nat} (x₀ x₁ x₂ x₃ : (⟨1, ![n]⟩ : Shape).Idx → α)
    (h : Shape.Concatenates [(⟨1, ![n]⟩ : Shape), ⟨1, ![n]⟩, ⟨1, ![n]⟩, ⟨1, ![n]⟩] ⟨1, ![m]⟩ 0)
    (j : (⟨1, ![m]⟩ : Shape).Idx) (q : Fin n) (h0 : (j 0).val = n + n + q.val) :
    concatenate ⟨1, ![m]⟩ 0 [⟨⟨1, ![n]⟩, x₀⟩, ⟨⟨1, ![n]⟩, x₁⟩, ⟨⟨1, ![n]⟩, x₂⟩, ⟨⟨1, ![n]⟩, x₃⟩] h j = x₂ (ix1 q) :=
  concatenate_apply_piece (t := ⟨1, ![m]⟩) 0 [⟨⟨1, ![n]⟩, x₀⟩, ⟨⟨1, ![n]⟩, x₁⟩, ⟨⟨1, ![n]⟩, x₂⟩, ⟨⟨1, ![n]⟩, x₃⟩] h j 2 (by simp) ⟨1, ![n]⟩ x₂ rfl rfl (n + n) (by simp) (ix1 q)
    (fun d => match d with
      | ⟨0, _⟩ => fun hne => absurd rfl hne)
    (by show n + n + q.val = (j 0).val; omega)

/-- Four vectors end to end: at position n + n + n + q, the result is the fourth vector at q. -/
theorem four_axis0_piece3 {n m : Nat} (x₀ x₁ x₂ x₃ : (⟨1, ![n]⟩ : Shape).Idx → α)
    (h : Shape.Concatenates [(⟨1, ![n]⟩ : Shape), ⟨1, ![n]⟩, ⟨1, ![n]⟩, ⟨1, ![n]⟩] ⟨1, ![m]⟩ 0)
    (j : (⟨1, ![m]⟩ : Shape).Idx) (q : Fin n) (h0 : (j 0).val = n + n + n + q.val) :
    concatenate ⟨1, ![m]⟩ 0 [⟨⟨1, ![n]⟩, x₀⟩, ⟨⟨1, ![n]⟩, x₁⟩, ⟨⟨1, ![n]⟩, x₂⟩, ⟨⟨1, ![n]⟩, x₃⟩] h j = x₃ (ix1 q) :=
  concatenate_apply_piece (t := ⟨1, ![m]⟩) 0 [⟨⟨1, ![n]⟩, x₀⟩, ⟨⟨1, ![n]⟩, x₁⟩, ⟨⟨1, ![n]⟩, x₂⟩, ⟨⟨1, ![n]⟩, x₃⟩] h j 3 (by simp) ⟨1, ![n]⟩ x₃ rfl rfl (n + n + n) (by simp; omega) (ix1 q)
    (fun d => match d with
      | ⟨0, _⟩ => fun hne => absurd rfl hne)
    (by show n + n + n + q.val = (j 0).val; omega)

end Cert.Lib.ConcatBlocks
-- ==== Proof.HostArrays.lean ====
/-
  The arrays the sixteen host operations hand to the region, read at an index, on the extended reals.

  Before the region the program narrows the two activation arrays (the identity on extended reals), cuts each gate's
  [2048, 1024] weight matrix into its upper half (the rows that meet x) and its lower half (the rows that meet h), lays
  the four upper halves side by side as one [1024, 4096] array and the four lower halves as another (gate g in columns
  1024·g … 1024·g + 1023), and lays the four bias vectors end to end as one row of 4096 entries.  So

      Wx(k, 1024·g + q) = W_g(k, q),      Wh(k, 1024·g + q) = W_g(1024 + k, q),      b(0, 1024·g + q) = b_g(q).
-/
import proofs.«119186_j42846593745221_2_alg».proof.Proof.KernelIdealHost
import proofs.«119186_j42846593745221_2_alg».proof.Proof.Spec
import proofs.«119186_j42846593745221_2_alg».proof.Proof.LibConcatBlocks
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostArrays

open Cert.KernelIdeal Cert.KernelIdeal.Gen Cert.KernelIdeal.Hand Cert.Lstm
open Idealize.ShloMosaic Idealize.ShloMosaic.ValueIdx Idealize.ShloMosaic.TcCoe Idealize.SL.Sem
open Idealize.ShloMosaic.StableHlo
open Cert.Lib.ConcatBlocks

variable (m : (ℓ : Loc nD τ sig) → Buf (Elt Ideal) ℓ) (c : Dev nD)

/-! ## The arrays as terms of the launch memory -/

/-- The narrowed first activation array is the first argument. -/
theorem e_x : (V m c main_v14 : S8192x1024.Idx → EReal) = (m ((c : Thread nD τ).loc main_arg0) : S8192x1024.Idx → EReal) := by
  dsimp only [V, hostOps0]; after_results; rfl

/-- The narrowed second activation array is the second argument. -/
theorem e_h : (V m c main_v15 : S8192x1024.Idx → EReal) = (m ((c : Thread nD τ).loc main_arg1) : S8192x1024.Idx → EReal) := by
  dsimp only [V, hostOps0]; after_results; rfl

/-- The weights that meet x: the four gates' upper halves side by side. -/
theorem e_Wx : (V m c main_v5 : S1024x4096.Idx → EReal) =
    concatenate S1024x4096 1
      [⟨S1024x1024, extractStridedSlice S1024x1024 ![0, 0] (m ((c : Thread nD τ).loc main_arg3) : S2048x1024.Idx → EReal) slices_S2048x1024_S1024x1024_0_0⟩,
       ⟨S1024x1024, extractStridedSlice S1024x1024 ![0, 0] (m ((c : Thread nD τ).loc main_arg4) : S2048x1024.Idx → EReal) slices_S2048x1024_S1024x1024_0_0⟩,
       ⟨S1024x1024, extractStridedSlice S1024x1024 ![0, 0] (m ((c : Thread nD τ).loc main_arg5) : S2048x1024.Idx → EReal) slices_S2048x1024_S1024x1024_0_0⟩,
       ⟨S1024x1024, extractStridedSlice S1024x1024 ![0, 0] (m ((c : Thread nD τ).loc main_arg6) : S2048x1024.Idx → EReal) slices_S2048x1024_S1024x1024_0_0⟩]
      concatenates_S1024x1024_S1024x1024_S1024x1024_S1024x1024_S1024x4096_d1 := by
  dsimp only [V, hostOps0]; after_results; rfl

/-- The weights that meet h: the four gates' lower halves side by side. -/
theorem e_Wh : (V m c main_v11 : S1024x4096.Idx → EReal) =
    concatenate S1024x4096 1
      [⟨S1024x1024, extractStridedSlice S1024x1024 ![1024, 0] (m ((c : Thread nD τ).loc main_arg3) : S2048x1024.Idx → EReal) slices_S2048x1024_S1024x1024_1024_0⟩,
       ⟨S1024x1024, extractStridedSlice S1024x1024 ![1024, 0] (m ((c : Thread nD τ).loc main_arg4) : S2048x1024.Idx → EReal) slices_S2048x1024_S1024x1024_1024_0⟩,
       ⟨S1024x1024, extractStridedSlice S1024x1024 ![1024, 0] (m ((c : Thread nD τ).loc main_arg5) : S2048x1024.Idx → EReal) slices_S2048x1024_S1024x1024_1024_0⟩,
       ⟨S1024x1024, extractStridedSlice S1024x1024 ![1024, 0] (m ((c : Thread nD τ).loc main_arg6) : S2048x1024.Idx → EReal) slices_S2048x1024_S1024x1024_1024_0⟩]
      concatenates_S1024x1024_S1024x1024_S1024x1024_S1024x1024_S1024x4096_d1 := by
  dsimp only [V, hostOps0]; after_results; rfl

/-- The bias row: the four bias vectors end to end, as one row. -/
theorem e_b : (V m c main_v13 : S1x4096.Idx → EReal) =
    shapeCast S1x4096
      (concatenate S4096 0
        [⟨S1024, (m ((c : Thread nD τ).loc main_arg7) : S1024.Idx → EReal)⟩, ⟨S1024, (m ((c : Thread nD τ).loc main_arg8) : S1024.Idx → EReal)⟩, ⟨S1024, (m ((c : Thread nD τ).loc main_arg9) : S1024.Idx → EReal)⟩, ⟨S1024, (m ((c : Thread nD τ).loc main_arg10) : S1024.Idx → EReal)⟩]
        concatenates_S1024_S1024_S1024_S1024_S4096_d0)
      shapeCasts_S4096_S1x4096 := by
  dsimp only [V, hostOps0]; after_results; rfl

/-! ## The activations -/

theorem V_x (p : Fin 8192) (k : Fin 1024) :
    (V m c main_v14 : S8192x1024.Idx → EReal) (ix2 p k) = (m ((c : Thread nD τ).loc main_arg0) : S8192x1024.Idx → EReal) (ix2 p k) :=
  congrFun (e_x m c) _

theorem V_h (p : Fin 8192) (k : Fin 1024) :
    (V m c main_v15 : S8192x1024.Idx → EReal) (ix2 p k) = (m ((c : Thread nD τ).loc main_arg1) : S8192x1024.Idx → EReal) (ix2 p k) :=
  congrFun (e_h m c) _

/-! ## The weights that meet x: row k, column 1024·g + q is gate g's weight at row k, column q -/

/-- The input gate's columns of the weights that meet x. -/
theorem V_Wx_i (k q : Fin 1024) (j : Fin 4096) (hj : j.val = q.val) :
    (V m c main_v5 : S1024x4096.Idx → EReal) (ix2 k j) = (m ((c : Thread nD τ).loc main_arg3) : S2048x1024.Idx → EReal) (ix2 (lo k) q) := by
  refine (congrFun (e_Wx m c) (ix2 k j)).trans ?_
  refine (four_axis1_piece0 _ _ _ _ _ (ix2 k j) k q rfl (by show j.val = q.val; omega)).trans ?_
  exact slice2_axis0_apply 0 _ _ k q (lo k) (Nat.zero_add _).symm

/-- The forget gate's columns of the weights that meet x. -/
theorem V_Wx_f (k q : Fin 1024) (j : Fin 4096) (hj : j.val = 1024 + q.val) :
    (V m c main_v5 : S1024x4096.Idx → EReal) (ix2 k j) = (m ((c : Thread nD τ).loc main_arg4) : S2048x1024.Idx → EReal) (ix2 (lo k) q) := by
  refine (congrFun (e_Wx m c) (ix2 k j)).trans ?_
  refine (four_axis1_piece1 _ _ _ _ _ (ix2 k j) k q rfl (by show j.val = 1024 + q.val; omega)).trans ?_
  exact slice2_axis0_apply 0 _ _ k q (lo k) (Nat.zero_add _).symm

/-- The cell gate's columns of the weights that meet x. -/
theorem V_Wx_g (k q : Fin 1024) (j : Fin 4096) (hj : j.val = 2048 + q.val) :
    (V m c main_v5 : S1024x4096.Idx → EReal) (ix2 k j) = (m ((c : Thread nD τ).loc main_arg5) : S2048x1024.Idx → EReal) (ix2 (lo k) q) := by
  refine (congrFun (e_Wx m c) (ix2 k j)).trans ?_
  refine (four_axis1_piece2 _ _ _ _ _ (ix2 k j) k q rfl (by show j.val = 1024 + 1024 + q.val; omega)).trans ?_
  exact slice2_axis0_apply 0 _ _ k q (lo k) (Nat.zero_add _).symm

/-- The output gate's columns of the weights that meet x. -/
theorem V_Wx_o (k q : Fin 1024) (j : Fin 4096) (hj : j.val = 3072 + q.val) :
    (V m c main_v5 : S1024x4096.Idx → EReal) (ix2 k j) = (m ((c : Thread nD τ).loc main_arg6) : S2048x1024.Idx → EReal) (ix2 (lo k) q) := by
  refine (congrFun (e_Wx m c) (ix2 k j)).trans ?_
  refine (four_axis1_piece3 _ _ _ _ _ (ix2 k j) k q rfl (by show j.val = 1024 + 1024 + 1024 + q.val; omega)).trans ?_
  exact slice2_axis0_apply 0 _ _ k q (lo k) (Nat.zero_add _).symm

/-! ## The weights that meet h: row k, column 1024·g + q is gate g's weight at row 1024 + k, column q -/

/-- The input gate's columns of the weights that meet h. -/
theorem V_Wh_i (k q : Fin 1024) (j : Fin 4096) (hj : j.val = q.val) :
    (V m c main_v11 : S1024x4096.Idx → EReal) (ix2 k j) = (m ((c : Thread nD τ).loc main_arg3) : S2048x1024.Idx → EReal) (ix2 (hi k) q) := by
  refine (congrFun (e_Wh m c) (ix2 k j)).trans ?_
  refine (four_axis1_piece0 _ _ _ _ _ (ix2 k j) k q rfl (by show j.val = q.val; omega)).trans ?_
  exact slice2_axis0_apply 1024 _ _ k q (hi k) rfl

/-- The forget gate's columns of the weights that meet h. -/
theorem V_Wh_f (k q : Fin 1024) (j : Fin 4096) (hj : j.val = 1024 + q.val) :
    (V m c main_v11 : S1024x4096.Idx → EReal) (ix2 k j) = (m ((c : Thread nD τ).loc main_arg4) : S2048x1024.Idx → EReal) (ix2 (hi k) q) := by
  refine (congrFun (e_Wh m c) (ix2 k j)).trans ?_
  refine (four_axis1_piece1 _ _ _ _ _ (ix2 k j) k q rfl (by show j.val = 1024 + q.val; omega)).trans ?_
  exact slice2_axis0_apply 1024 _ _ k q (hi k) rfl

/-- The cell gate's columns of the weights that meet h. -/
theorem V_Wh_g (k q : Fin 1024) (j : Fin 4096) (hj : j.val = 2048 + q.val) :
    (V m c main_v11 : S1024x4096.Idx → EReal) (ix2 k j) = (m ((c : Thread nD τ).loc main_arg5) : S2048x1024.Idx → EReal) (ix2 (hi k) q) := by
  refine (congrFun (e_Wh m c) (ix2 k j)).trans ?_
  refine (four_axis1_piece2 _ _ _ _ _ (ix2 k j) k q rfl (by show j.val = 1024 + 1024 + q.val; omega)).trans ?_
  exact slice2_axis0_apply 1024 _ _ k q (hi k) rfl

/-- The output gate's columns of the weights that meet h. -/
theorem V_Wh_o (k q : Fin 1024) (j : Fin 4096) (hj : j.val = 3072 + q.val) :
    (V m c main_v11 : S1024x4096.Idx → EReal) (ix2 k j) = (m ((c : Thread nD τ).loc main_arg6) : S2048x1024.Idx → EReal) (ix2 (hi k) q) := by
  refine (congrFun (e_Wh m c) (ix2 k j)).trans ?_
  refine (four_axis1_piece3 _ _ _ _ _ (ix2 k j) k q rfl (by show j.val = 1024 + 1024 + 1024 + q.val; omega)).trans ?_
  exact slice2_axis0_apply 1024 _ _ k q (hi k) rfl

/-! ## The bias row: column 1024·g + q is gate g's bias at q -/

/-- The input gate's columns of the bias row. -/
theorem V_b_i (q : Fin 1024) (j : Fin 4096) (hj : j.val = q.val) :
    (V m c main_v13 : S1x4096.Idx → EReal) (ix2 (0 : Fin 1) j) = (m ((c : Thread nD τ).loc main_arg7) : S1024.Idx → EReal) (ix1 q) := by
  refine (congrFun (e_b m c) (ix2 (0 : Fin 1) j)).trans ?_
  refine (shapeCast_a_1a_apply _ _ (0 : Fin 1) j).trans ?_
  exact four_axis0_piece0 _ _ _ _ _ (ix1 j) q (by show j.val = q.val; omega)

/-- The forget gate's columns of the bias row. -/
theorem V_b_f (q : Fin 1024) (j : Fin 4096) (hj : j.val = 1024 + q.val) :
    (V m c main_v13 : S1x4096.Idx → EReal) (ix2 (0 : Fin 1) j) = (m ((c : Thread nD τ).loc main_arg8) : S1024.Idx → EReal) (ix1 q) := by
  refine (congrFun (e_b m c) (ix2 (0 : Fin 1) j)).trans ?_
  refine (shapeCast_a_1a_apply _ _ (0 : Fin 1) j).trans ?_
  exact four_axis0_piece1 _ _ _ _ _ (ix1 j) q (by show j.val = 1024 + q.val; omega)

/-- The cell gate's columns of the bias row. -/
theorem V_b_g (q : Fin 1024) (j : Fin 4096) (hj : j.val = 2048 + q.val) :
    (V m c main_v13 : S1x4096.Idx → EReal) (ix2 (0 : Fin 1) j) = (m ((c : Thread nD τ).loc main_arg9) : S1024.Idx → EReal) (ix1 q) := by
  refine (congrFun (e_b m c) (ix2 (0 : Fin 1) j)).trans ?_
  refine (shapeCast_a_1a_apply _ _ (0 : Fin 1) j).trans ?_
  exact four_axis0_piece2 _ _ _ _ _ (ix1 j) q (by show j.val = 1024 + 1024 + q.val; omega)

/-- The output gate's columns of the bias row. -/
theorem V_b_o (q : Fin 1024) (j : Fin 4096) (hj : j.val = 3072 + q.val) :
    (V m c main_v13 : S1x4096.Idx → EReal) (ix2 (0 : Fin 1) j) = (m ((c : Thread nD τ).loc main_arg10) : S1024.Idx → EReal) (ix1 q) := by
  refine (congrFun (e_b m c) (ix2 (0 : Fin 1) j)).trans ?_
  refine (shapeCast_a_1a_apply _ _ (0 : Fin 1) j).trans ?_
  exact four_axis0_piece3 _ _ _ _ _ (ix1 j) q (by show j.val = 1024 + 1024 + 1024 + q.val; omega)

end Cert.KernelIdeal.HostArrays

end
-- ==== Proof.Payload.lean ====
/-
  What the LSTM kernel's body stores, read at an index of the block, on the extended reals.

  The body reads the three activation blocks whole and each gate's 1024 columns of the two weight arrays and of the
  bias row through a column rectangle; a gate's pre-activation at row r and unit q is then

      Σ_k x(r,k)·W(k, off+q) + Σ_k h(r,k)·Wh(k, off+q) + b(0, off+q),

  the two matrix products being sums over the contraction axis, the row broadcast reading its one row, and the
  shape casts to the same shape the identity. The stored cell state is σ(f)·c + σ(i)·tanh(g) and the stored hidden
  state σ(o)·tanh of it, which is the block specification index by index.
-/
import proofs.«119186_j42846593745221_2_alg».proof.Proof.Spec
import proofs.«119186_j42846593745221_2_alg».proof.Proof.KernelIdealHost
import Idealize.ShloMosaic.Lib.ValueLayout
import Idealize.ShloMosaic.PureOps.Ideal.Laws

noncomputable section

namespace Cert.KernelIdeal.Payload

open Cert.KernelIdeal Cert.KernelIdeal.Gen Cert.KernelIdeal.Hand Cert.Lstm Idealize.ShloMosaic Idealize.ShloMosaic.ValueIdx

/-! ## Reads through the rectangles -/

/-- A whole-block rectangle reads the block. -/
theorem ld_blk {e : EltTy} (x : Vec Ideal S512x1024 e) : View.ld x rBlk = x :=
  View.ld_unit_zero (funext fun a => by match a with | ⟨0, _⟩ => rfl | ⟨1, _⟩ => rfl) _ x

/-- 1024 columns of a [1024, 4096] array from column off: row k, column q of what is read is row k, column off + q. -/
theorem ld_cols {e : EltTy} (x : Vec Ideal S1024x4096 e) (off : ℕ) (hoff : off + 1024 ≤ 4096)
    (inb : ∀ a, (![0, off] : Fin 2 → ℕ) a + S1024x1024.size a ≤ S1024x4096.size a) (k q : Fin 1024) :
    View.ld x (Rect.unit (s := S1024x4096) ![0, off] S1024x1024.size inb) (ix2 k q) = x (ix2 k (col off hoff q)) := by
  show x _ = x _
  refine congrArg x (funext fun a => Fin.ext ?_)
  match a with
  | ⟨0, _⟩ => show 0 + 1 * k.val = k.val; omega
  | ⟨1, _⟩ => show off + 1 * q.val = off + q.val; omega

/-- The same 1024 columns of a [1, 4096] row. -/
theorem ld_row {e : EltTy} (x : Vec Ideal S1x4096 e) (off : ℕ) (hoff : off + 1024 ≤ 4096)
    (inb : ∀ a, (![0, off] : Fin 2 → ℕ) a + S1x1024.size a ≤ S1x4096.size a) (q : Fin 1024) :
    View.ld x (Rect.unit (s := S1x4096) ![0, off] S1x1024.size inb) (ix2 (0 : Fin 1) q) = x (ix2 (0 : Fin 1) (col off hoff q)) := by
  show x _ = x _
  refine congrArg x (funext fun a => Fin.ext ?_)
  match a with
  | ⟨0, _⟩ => show 0 + 1 * 0 = 0; omega
  | ⟨1, _⟩ => show off + 1 * q.val = off + q.val; omega

/-! ## One matrix product into the zero accumulator, at an index -/

/-- The left operand's row is the output's row … -/
theorem lhsIdx_0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- … its column the contraction position … -/
theorem lhsIdx_1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
/-- … the right operand's row the contraction position … -/
theorem rhsIdx_0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
/-- … and its column the output's column. -/
theorem rhsIdx_1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- So at (r, q) and contraction position k the left operand is read at (r, k) … -/
theorem lhsIdx_eq (r : Fin 512) (q k : Fin 1024) :
    dot_S512x1024_S1024x1024_S512x1024_1_0_0_1_n_n.lhsIdx (ix2 r q)
      ((contrEquiv1 dot_S512x1024_S1024x1024_S512x1024_1_0_0_1_n_n 1024 rfl rfl).symm k) = ix2 r k := by
  have hk := contrEquiv1_symm_val dot_S512x1024_S1024x1024_S512x1024_1_0_0_1_n_n 1024 rfl rfl k
  refine funext fun a => Fin.ext ?_
  match a with
  | ⟨0, _⟩ => exact lhsIdx_0 _ _
  | ⟨1, _⟩ => exact (lhsIdx_1 _ _).trans hk

/-- … and the right operand at (k, q). -/
theorem rhsIdx_eq (r : Fin 512) (q k : Fin 1024) :
    dot_S512x1024_S1024x1024_S512x1024_1_0_0_1_n_n.rhsIdx (ix2 r q)
      ((contrEquiv1 dot_S512x1024_S1024x1024_S512x1024_1_0_0_1_n_n 1024 rfl rfl).symm k) = ix2 k q := by
  have hk := contrEquiv1_symm_val dot_S512x1024_S1024x1024_S512x1024_1_0_0_1_n_n 1024 rfl rfl k
  refine funext fun a => Fin.ext ?_
  match a with
  | ⟨0, _⟩ => exact (rhsIdx_0 _ _).trans hk
  | ⟨1, _⟩ => exact rhsIdx_1 _ _

/-- A [512,1024] by [1024,1024] product into the zero accumulator is, at (r, q), the sum over the contraction axis. -/
theorem matmul_zero_apply (a : FVec Ideal S512x1024 .bf16) (w : FVec Ideal S1024x1024 .bf16) (r : Fin 512) (q : Fin 1024) :
    matmul dot_S512x1024_S1024x1024_S512x1024_1_0_0_1_n_n none a w (constant (F := Ideal) S512x1024 .f32 0x00000000#32) (ix2 r q)
      = ∑ k : Fin 1024, a (ix2 r k) * w (ix2 k q) := by
  refine (Ideal.matmul_constant_zero_apply dot_S512x1024_S1024x1024_S512x1024_1_0_0_1_n_n none a w (ix2 r q)).trans ?_
  rw [← Equiv.sum_comp (contrEquiv1 dot_S512x1024_S1024x1024_S512x1024_1_0_0_1_n_n 1024 rfl rfl).symm]
  refine Finset.sum_congr rfl fun k _ => ?_
  rw [lhsIdx_eq, rhsIdx_eq]

/-! ## A gate's pre-activation -/

/-- Row r, unit q of a gate from the two activation blocks, the gate's two weight pieces and its bias row. -/
def gsum (a0 a1 : FVec Ideal S512x1024 .bf16) (w wh : FVec Ideal S1024x1024 .bf16) (b : FVec Ideal S1x1024 .f32)
    (r : Fin 512) (q : Fin 1024) : EReal :=
  ((∑ k : Fin 1024, a0 (ix2 r k) * w (ix2 k q)) + ∑ k : Fin 1024, a1 (ix2 r k) * wh (ix2 k q)) + b (ix2 (0 : Fin 1) q)

/-- The gate as the body computes it: two products into zero accumulators, added, plus the broadcast bias row. -/
def gateV (a0 a1 : FVec Ideal S512x1024 .bf16) (w wh : FVec Ideal S1024x1024 .bf16) (b : FVec Ideal S1x1024 .f32) :
    FVec Ideal S512x1024 .f32 :=
  addf (addf (matmul dot_S512x1024_S1024x1024_S512x1024_1_0_0_1_n_n none a0 w (constant (F := Ideal) S512x1024 .f32 0x00000000#32))
      (matmul dot_S512x1024_S1024x1024_S512x1024_1_0_0_1_n_n none a1 wh (constant (F := Ideal) S512x1024 .f32 0x00000000#32)))
    (broadcastTo S512x1024 b Facts₀.broadcasts_S1x1024_S512x1024)

theorem gateV_apply (a0 a1 : FVec Ideal S512x1024 .bf16) (w wh : FVec Ideal S1024x1024 .bf16) (b : FVec Ideal S1x1024 .f32)
    (r : Fin 512) (q : Fin 1024) : gateV a0 a1 w wh b (ix2 r q) = gsum a0 a1 w wh b r q := by
  unfold gateV gsum
  refine (addf_apply _ _ _).trans ?_
  refine congrArg₂ (· + ·) ((addf_apply _ _ _).trans (congrArg₂ (· + ·) (matmul_zero_apply a0 w r q) (matmul_zero_apply a1 wh r q))) ?_
  exact broadcastTo_1b_ab_apply b _ r q

/-- The gate read through the body's rectangles is the block specification's gate at the rectangles' column offset. -/
theorem gsum_cols (x0 x1 : Vec Ideal S512x1024 .bf16) (x3 x4 : Vec Ideal S1024x4096 .bf16) (x5 : Vec Ideal S1x4096 .f32)
    (off : ℕ) (hoff : off + 1024 ≤ 4096)
    (inbW : ∀ a, (![0, off] : Fin 2 → ℕ) a + S1024x1024.size a ≤ S1024x4096.size a)
    (inbB : ∀ a, (![0, off] : Fin 2 → ℕ) a + S1x1024.size a ≤ S1x4096.size a) (r : Fin 512) (q : Fin 1024) :
    gsum x0 x1 (View.ld x3 (Rect.unit (s := S1024x4096) ![0, off] S1024x1024.size inbW))
        (View.ld x4 (Rect.unit (s := S1024x4096) ![0, off] S1024x1024.size inbW))
        (View.ld x5 (Rect.unit (s := S1x4096) ![0, off] S1x1024.size inbB)) r q
      = blkGate x0 x1 x3 x4 x5 off hoff r q := by
  unfold gsum blkGate
  exact congrArg₂ (· + ·)
    (congrArg₂ (· + ·)
      (Finset.sum_congr rfl fun k _ => congrArg (x0 (ix2 r k) * ·) (ld_cols x3 off hoff inbW k q))
      (Finset.sum_congr rfl fun k _ => congrArg (x1 (ix2 r k) * ·) (ld_cols x4 off hoff inbW k q)))
    (ld_row x5 off hoff inbB q)

/-! ## The payloads as functions of what is loaded -/

theorem pay3_eq (v : Vec Ideal S512x1024 .bf16) : k0_pay3 (F := Ideal) v = v := by
  unfold k0_pay3; exact shapeCast_self _ _
theorem pay4_eq (v : Vec Ideal S512x1024 .bf16) : k0_pay4 (F := Ideal) v = v := by
  unfold k0_pay4; exact shapeCast_self _ _
theorem pay6_eq (v : Vec Ideal S1024x1024 .bf16) : k0_pay6 (F := Ideal) v = v := by
  unfold k0_pay6; exact shapeCast_self _ _

/-- σ(input gate) · tanh(cell gate). -/
theorem pay5_eq (v0 v2 : Vec Ideal S512x1024 .bf16) (v5 v7 : Vec Ideal S1024x1024 .bf16) (v9 : Vec Ideal S1x1024 .f32)
    (v17 v19 : Vec Ideal S1024x1024 .bf16) (v21 : Vec Ideal S1x1024 .f32) :
    k0_pay5 (F := Ideal) v0 v2 v5 v7 v9 v17 v19 v21 = mulf (logistic (gateV v0 v2 v17 v19 v21)) (tanh (gateV v0 v2 v5 v7 v9)) := by
  unfold k0_pay5 gateV
  simp only [pay3_eq, pay4_eq, shapeCast_self]

/-- σ(forget gate) · c + the input term. -/
theorem pay1_eq (v1 v3 : FVec Ideal S512x1024 .bf16) (v4 : Vec Ideal S512x1024 .f32) (v29 : FVec Ideal S512x1024 .f32)
    (v31 : FVec Ideal S1024x1024 .bf16) (v32 : Vec Ideal S1024x1024 .bf16) (v34 : Vec Ideal S1x1024 .f32) :
    k0_pay1 (F := Ideal) v1 v3 v4 v29 v31 v32 v34 = addf (mulf (logistic (gateV v1 v3 v31 v32 v34)) v4) v29 := by
  unfold k0_pay1 gateV
  simp only [shapeCast_self]

/-- σ(output gate) · tanh(new cell state). -/
theorem pay2_eq (v1 v3 : FVec Ideal S512x1024 .bf16) (v4 : Vec Ideal S512x1024 .f32) (v29 : FVec Ideal S512x1024 .f32)
    (v31 : FVec Ideal S1024x1024 .bf16) (v32 : Vec Ideal S1024x1024 .bf16) (v34 : Vec Ideal S1x1024 .f32)
    (v44 v46 : Vec Ideal S1024x1024 .bf16) (v48 : Vec Ideal S1x1024 .f32) :
    k0_pay2 (F := Ideal) v1 v3 v4 v29 v31 v32 v34 v44 v46 v48
      = mulf (logistic (gateV v1 v3 v44 v46 v48)) (tanh (k0_pay1 (F := Ideal) v1 v3 v4 v29 v31 v32 v34)) := by
  unfold k0_pay2 gateV
  simp only [shapeCast_self]

/-! ## What the body stores, at an index -/

/-- The cell-state formula read at an index. -/
theorem cellForm_apply (g1 g2 g3 c : FVec Ideal S512x1024 .f32) (i : S512x1024.Idx) :
    addf (mulf (logistic g1) c) (mulf (logistic g2) (tanh g3)) i
      = Ideal.logistic (g1 i) * c i + Ideal.logistic (g2 i) * Ideal.tanh (g3 i) := rfl

/-- The hidden-state formula read at an index. -/
theorem hidForm_apply (g c : FVec Ideal S512x1024 .f32) (i : S512x1024.Idx) :
    mulf (logistic g) (tanh c) i = Ideal.logistic (g i) * Ideal.tanh (c i) := rfl

/-- The stored cell state over the six input blocks: forget gate at columns 1024…, input gate at 0…, cell gate at 2048…. -/
theorem cellVal_eq (x0 x1 : Vec Ideal S512x1024 .bf16) (x2 : Vec Ideal S512x1024 .f32) (x3 x4 : Vec Ideal S1024x4096 .bf16)
    (x5 : Vec Ideal S1x4096 .f32) :
    cellVal (F := Ideal) x0 x1 x2 x3 x4 x5
      = addf (mulf (logistic (gateV x0 x1 (View.ld x3 rWf) (View.ld x4 rWf) (View.ld x5 rBf))) x2)
          (mulf (logistic (gateV x0 x1 (View.ld x3 rWi) (View.ld x4 rWi) (View.ld x5 rBi)))
            (tanh (gateV x0 x1 (View.ld x3 rWg) (View.ld x4 rWg) (View.ld x5 rBg)))) := by
  unfold cellVal
  rw [pay1_eq, pay5_eq, pay3_eq, pay4_eq, pay6_eq, ld_blk, ld_blk, ld_blk]

/-- The stored hidden state: output gate at columns 3072…, over the stored cell state. -/
theorem hidVal_eq (x0 x1 : Vec Ideal S512x1024 .bf16) (x2 : Vec Ideal S512x1024 .f32) (x3 x4 : Vec Ideal S1024x4096 .bf16)
    (x5 : Vec Ideal S1x4096 .f32) :
    hidVal (F := Ideal) x0 x1 x2 x3 x4 x5
      = mulf (logistic (gateV x0 x1 (View.ld x3 rWo) (View.ld x4 rWo) (View.ld x5 rBo)))
          (tanh (cellVal (F := Ideal) x0 x1 x2 x3 x4 x5)) := by
  unfold hidVal cellVal
  rw [pay2_eq, pay3_eq, pay4_eq, ld_blk, ld_blk]

/-- The stored cell state at row r, unit q is the block specification's. -/
theorem cellVal_apply (x0 x1 : Vec Ideal S512x1024 .bf16) (x2 : Vec Ideal S512x1024 .f32) (x3 x4 : Vec Ideal S1024x4096 .bf16)
    (x5 : Vec Ideal S1x4096 .f32) (r : Fin 512) (q : Fin 1024) :
    cellVal (F := Ideal) x0 x1 x2 x3 x4 x5 (ix2 r q) = Cert.Lstm.blkCell x0 x1 x2 x3 x4 x5 r q := by
  rw [cellVal_eq]
  refine (cellForm_apply _ _ _ _ _).trans ?_
  unfold blkCell
  exact congrArg₂ (· + ·)
    (congrArg (Ideal.logistic · * x2 (ix2 r q))
      ((gateV_apply _ _ _ _ _ r q).trans (gsum_cols x0 x1 x3 x4 x5 1024 _ _ _ r q)))
    (congrArg₂ (fun a b => Ideal.logistic a * Ideal.tanh b)
      ((gateV_apply _ _ _ _ _ r q).trans (gsum_cols x0 x1 x3 x4 x5 0 _ _ _ r q))
      ((gateV_apply _ _ _ _ _ r q).trans (gsum_cols x0 x1 x3 x4 x5 2048 _ _ _ r q)))

/-- The stored hidden state at row r, unit q is the block specification's. -/
theorem hidVal_apply (x0 x1 : Vec Ideal S512x1024 .bf16) (x2 : Vec Ideal S512x1024 .f32) (x3 x4 : Vec Ideal S1024x4096 .bf16)
    (x5 : Vec Ideal S1x4096 .f32) (r : Fin 512) (q : Fin 1024) :
    hidVal (F := Ideal) x0 x1 x2 x3 x4 x5 (ix2 r q) = Cert.Lstm.blkHid x0 x1 x2 x3 x4 x5 r q := by
  rw [hidVal_eq]
  refine (hidForm_apply _ _ _).trans ?_
  unfold blkHid
  exact congrArg₂ (fun a b => Ideal.logistic a * Ideal.tanh b)
    ((gateV_apply _ _ _ _ _ r q).trans (gsum_cols x0 x1 x3 x4 x5 3072 _ _ _ r q))
    (cellVal_apply x0 x1 x2 x3 x4 x5 r q)

end Cert.KernelIdeal.Payload

end
-- ==== Proof.SpecBlock.lean ====
/-
  A block of 512 rows computes the whole-array cell on its rows. If the block's x, h, c rows are rows p of the arrays
  (block row r), and the resident weight arrays hold gate g's weight matrix in columns 1024·g … — its first 1024 rows in
  the array that meets x, its last 1024 rows in the array that meets h — and the bias row holds gate g's bias there,
  then the block-level gate, cell state and hidden state at (r, q) are the whole-array ones at (p, q). Nothing here
  needs a finite entry: the two sides are the same sums of the same products.
-/
import proofs.«119186_j42846593745221_2_alg».proof.Proof.Spec

noncomputable section

namespace Cert.Lstm

open Idealize.ShloMosaic Idealize.ShloMosaic.ValueIdx

variable (x h c : (⟨2, ![8192, 1024]⟩ : Shape).Idx → EReal)
variable (y0 y1 y2 : (⟨2, ![512, 1024]⟩ : Shape).Idx → EReal) (y3 y4 : (⟨2, ![1024, 4096]⟩ : Shape).Idx → EReal)
  (y5 : (⟨2, ![1, 4096]⟩ : Shape).Idx → EReal)

/-- Block row r holds row p of x, h and c. -/
def RowsOf (p : Fin 8192) (r : Fin 512) : Prop :=
  ∀ k : Fin 1024, y0 (ix2 r k) = x (ix2 p k) ∧ y1 (ix2 r k) = h (ix2 p k) ∧ y2 (ix2 r k) = c (ix2 p k)

/-- Columns off … off+1023 of the resident arrays hold the weight matrix W (top half against x, bottom half against
    h) and the bias b. -/
def GateCols (W : (⟨2, ![2048, 1024]⟩ : Shape).Idx → EReal) (b : (⟨1, ![1024]⟩ : Shape).Idx → EReal)
    (off : ℕ) (hoff : off + 1024 ≤ 4096) : Prop :=
  ∀ k q : Fin 1024, y3 (ix2 k (col off hoff q)) = W (ix2 (lo k) q) ∧ y4 (ix2 k (col off hoff q)) = W (ix2 (hi k) q)
    ∧ y5 (ix2 (0 : Fin 1) (col off hoff q)) = b (ix1 q)

variable {x h c y0 y1 y2 y3 y4 y5}

theorem blkGate_eq {W : (⟨2, ![2048, 1024]⟩ : Shape).Idx → EReal} {b : (⟨1, ![1024]⟩ : Shape).Idx → EReal}
    {off : ℕ} {hoff : off + 1024 ≤ 4096} {p : Fin 8192} {r : Fin 512}
    (hr : RowsOf x h c y0 y1 y2 p r) (hg : GateCols y3 y4 y5 W b off hoff) (q : Fin 1024) :
    blkGate y0 y1 y3 y4 y5 off hoff r q = gate x h W b p q := by
  unfold blkGate gate
  have e1 : ∀ k : Fin 1024, y0 (ix2 r k) * y3 (ix2 k (col off hoff q)) = x (ix2 p k) * W (ix2 (lo k) q) :=
    fun k => by rw [(hr k).1, (hg k q).1]
  have e2 : ∀ k : Fin 1024, y1 (ix2 r k) * y4 (ix2 k (col off hoff q)) = h (ix2 p k) * W (ix2 (hi k) q) :=
    fun k => by rw [(hr k).2.1, (hg k q).2.1]
  rw [Finset.sum_congr rfl fun k _ => e1 k, Finset.sum_congr rfl fun k _ => e2 k, (hg q q).2.2]

variable {Wi Wf Wg Wo : (⟨2, ![2048, 1024]⟩ : Shape).Idx → EReal} {bi bf bg bo : (⟨1, ![1024]⟩ : Shape).Idx → EReal}

theorem blkCell_eq {p : Fin 8192} {r : Fin 512} (hr : RowsOf x h c y0 y1 y2 p r)
    (hi : GateCols y3 y4 y5 Wi bi 0 (by norm_num)) (hf : GateCols y3 y4 y5 Wf bf 1024 (by norm_num))
    (hg : GateCols y3 y4 y5 Wg bg 2048 (by norm_num)) (q : Fin 1024) :
    blkCell y0 y1 y2 y3 y4 y5 r q = cellNew x h c Wi Wf Wg bi bf bg p q := by
  unfold blkCell cellNew
  rw [blkGate_eq hr hi q, blkGate_eq hr hf q, blkGate_eq hr hg q, (hr q).2.2]

theorem blkHid_eq {p : Fin 8192} {r : Fin 512} (hr : RowsOf x h c y0 y1 y2 p r)
    (hi : GateCols y3 y4 y5 Wi bi 0 (by norm_num)) (hf : GateCols y3 y4 y5 Wf bf 1024 (by norm_num))
    (hg : GateCols y3 y4 y5 Wg bg 2048 (by norm_num)) (ho : GateCols y3 y4 y5 Wo bo 3072 (by norm_num)) (q : Fin 1024) :
    blkHid y0 y1 y2 y3 y4 y5 r q = hidNew x h c Wi Wf Wg Wo bi bf bg bo p q := by
  unfold blkHid hidNew
  rw [blkGate_eq hr ho q, blkCell_eq hr hi hf hg q]

end Cert.Lstm

end
-- ==== Proof.KernelValue.lean ====
/-
  The idealized kernel's two result arrays as whole-array functions of the launch memory. At grid point t the body
  stores into window 6 the hidden state and into window 7 the cell state of a block whose x, h, c rows are rows
  512·t … 512·t+511 of the argument arrays and whose resident weight arrays hold, for gate g in columns 1024·g …, the
  rows of W_g that meet x (first array) and the rows that meet h (second array). So the block written back at t is
  block t of the whole-array LSTM cell, and the sixteen blocks tile each result array.
-/
import proofs.«119186_j42846593745221_2_alg».proof.Proof.KernelIdealBody
import proofs.«119186_j42846593745221_2_alg».proof.Proof.BlockReads
import proofs.«119186_j42846593745221_2_alg».proof.Proof.HostArrays
import proofs.«119186_j42846593745221_2_alg».proof.Proof.Payload
import proofs.«119186_j42846593745221_2_alg».proof.Proof.SpecBlock

noncomputable section

namespace Cert.KernelIdeal.KValue

open Cert.KernelIdeal Cert.KernelIdeal.Gen Cert.KernelIdeal.Hand Cert.KernelIdeal.Blocks Cert.KernelIdeal.HostArrays Cert.KernelIdeal.Payload Cert.Lstm
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The argument arrays of the launch memory -/

abbrev aX : S8192x1024.Idx → EReal := m ((c : Thread nD τ).loc main_arg0)
abbrev aH : S8192x1024.Idx → EReal := m ((c : Thread nD τ).loc main_arg1)
abbrev aC : S8192x1024.Idx → EReal := m ((c : Thread nD τ).loc main_arg2)
abbrev aWi : S2048x1024.Idx → EReal := m ((c : Thread nD τ).loc main_arg3)
abbrev aWf : S2048x1024.Idx → EReal := m ((c : Thread nD τ).loc main_arg4)
abbrev aWg : S2048x1024.Idx → EReal := m ((c : Thread nD τ).loc main_arg5)
abbrev aWo : S2048x1024.Idx → EReal := m ((c : Thread nD τ).loc main_arg6)
abbrev aBi : S1024.Idx → EReal := m ((c : Thread nD τ).loc main_arg7)
abbrev aBf : S1024.Idx → EReal := m ((c : Thread nD τ).loc main_arg8)
abbrev aBg : S1024.Idx → EReal := m ((c : Thread nD τ).loc main_arg9)
abbrev aBo : S1024.Idx → EReal := m ((c : Thread nD τ).loc main_arg10)

/-- The two results as functions of the launch memory. -/
abbrev hidOf : S8192x1024.Idx → EReal :=
  hidArr (aX m c) (aH m c) (aC m c) (aWi m c) (aWf m c) (aWg m c) (aWo m c) (aBi m c) (aBf m c) (aBg m c) (aBo m c)
abbrev cellOf : S8192x1024.Idx → EReal :=
  cellArr (aX m c) (aH m c) (aC m c) (aWi m c) (aWf m c) (aWg m c) (aBi m c) (aBf m c) (aBg m c)

/-! ## A block's inputs are rows and columns of the arguments -/

theorem rowsOf (t : Fin cfg0.N) (r : Fin 512) :
    RowsOf (aX m c) (aH m c) (aC m c) (iblk m c 0 t) (iblk m c 1 t) (iblk m c 2 t) (row t r) r := fun k =>
  ⟨(iblk0_apply m c t r k).trans (V_x m c (row t r) k), (iblk1_apply m c t r k).trans (V_h m c (row t r) k),
    (iblk2_apply m c t r k).trans (congrFun (V_main_arg2 m c) _)⟩

theorem cols_i (t : Fin cfg0.N) : GateCols (iblk m c 3 t) (iblk m c 4 t) (iblk m c 5 t) (aWi m c) (aBi m c) 0 (by norm_num) := fun k q =>
  ⟨(iblk3_apply m c t k _).trans (V_Wx_i m c k q _ (Nat.zero_add _)), (iblk4_apply m c t k _).trans (V_Wh_i m c k q _ (Nat.zero_add _)),
    (iblk5_apply m c t 0 _).trans (V_b_i m c q _ (Nat.zero_add _))⟩
theorem cols_f (t : Fin cfg0.N) : GateCols (iblk m c 3 t) (iblk m c 4 t) (iblk m c 5 t) (aWf m c) (aBf m c) 1024 (by norm_num) := fun k q =>
  ⟨(iblk3_apply m c t k _).trans (V_Wx_f m c k q _ rfl), (iblk4_apply m c t k _).trans (V_Wh_f m c k q _ rfl),
    (iblk5_apply m c t 0 _).trans (V_b_f m c q _ rfl)⟩
theorem cols_g (t : Fin cfg0.N) : GateCols (iblk m c 3 t) (iblk m c 4 t) (iblk m c 5 t) (aWg m c) (aBg m c) 2048 (by norm_num) := fun k q =>
  ⟨(iblk3_apply m c t k _).trans (V_Wx_g m c k q _ rfl), (iblk4_apply m c t k _).trans (V_Wh_g m c k q _ rfl),
    (iblk5_apply m c t 0 _).trans (V_b_g m c q _ rfl)⟩
theorem cols_o (t : Fin cfg0.N) : GateCols (iblk m c 3 t) (iblk m c 4 t) (iblk m c 5 t) (aWo m c) (aBo m c) 3072 (by norm_num) := fun k q =>
  ⟨(iblk3_apply m c t k _).trans (V_Wx_o m c k q _ rfl), (iblk4_apply m c t k _).trans (V_Wh_o m c k q _ rfl),
    (iblk5_apply m c t 0 _).trans (V_b_o m c q _ rfl)⟩

/-! ## What each point writes back is a block of the whole-array cell -/

theorem hz : (![0, 0] : Fin 2 → Nat) = fun _ => 0 := funext fun a => by fin_cases a <;> rfl

/-- Point t writes back to result 0 the block t of the hidden-state array. -/
theorem flushed6_eq (t : Fin cfg0.N) :
    (dats m 0 c).flushed 6 t = ((cfg0.win 6).blk t).view.read (Elt Ideal) (hidOf m c) := by
  show (cfg0.win 6).cut (grid0.coords t) ((dats m 0 c).after 6 t) = _
  rw [after0_6]
  unfold out0_6
  rw [View.canon_unit_zero hz]
  funext j
  obtain ⟨r, q, rfl⟩ : ∃ (r : Fin 512) (q : Fin 1024), j = ix2 r q := ⟨j 0, j 1, eq_ix2 (n0 := 512) (n1 := 1024) j⟩
  show hidVal (F := Ideal) (iblk m c 0 t) (iblk m c 1 t) (iblk m c 2 t) (iblk m c 3 t) (iblk m c 4 t) (iblk m c 5 t) (ix2 r q)
    = hidOf m c (((cfg0.win 6).blk t).view.emb (ix2 r q))
  rw [emb6, hidVal_apply]
  exact blkHid_eq (rowsOf m c t r) (cols_i m c t) (cols_f m c t) (cols_g m c t) (cols_o m c t) q

/-- Point t writes back to result 1 the block t of the cell-state array. -/
theorem flushed7_eq (t : Fin cfg0.N) :
    (dats m 0 c).flushed 7 t = ((cfg0.win 7).blk t).view.read (Elt Ideal) (cellOf m c) := by
  show (cfg0.win 7).cut (grid0.coords t) ((dats m 0 c).after 7 t) = _
  rw [after0_7]
  unfold out0_7
  rw [View.canon_unit_zero hz]
  funext j
  obtain ⟨r, q, rfl⟩ : ∃ (r : Fin 512) (q : Fin 1024), j = ix2 r q := ⟨j 0, j 1, eq_ix2 (n0 := 512) (n1 := 1024) j⟩
  show cellVal (F := Ideal) (iblk m c 0 t) (iblk m c 1 t) (iblk m c 2 t) (iblk m c 3 t) (iblk m c 4 t) (iblk m c 5 t) (ix2 r q)
    = cellOf m c (((cfg0.win 7).blk t).view.emb (ix2 r q))
  rw [emb7, cellVal_apply]
  exact blkCell_eq (rowsOf m c t r) (cols_i m c t) (cols_f m c t) (cols_g m c t) q

/-- The sixteen blocks tile each result array, so after the run it is the whole-array function. -/
theorem final6 : (dats m 0 c).arrAt 6 cfg0.N = hidOf m c :=
  (dats m 0 c).arrAt_eq_of_cover 6 (hidOf m c) (fun t _ => flushed6_eq m c t) cover6
theorem final7 : (dats m 0 c).arrAt 7 cfg0.N = cellOf m c :=
  (dats m 0 c).arrAt_eq_of_cover 7 (cellOf m c) (fun t _ => flushed7_eq m c t) cover7

/-! ## The run, read -/

/-- Every weakly fair execution of the idealized kernel program terminates with the first result at the hidden state,
    the second at the cell state of the launch memory's arguments, and the arguments unchanged. -/
theorem run : θ_run defs (onTc (τ := τ) (main (F := Ideal))) ⟨m, fun _ => 0, ρ⟩ fun r => ∀ c : Dev nD,
      r.2.mem ((c : Thread nD τ).loc main_v16_0) = hidOf m c
      ∧ r.2.mem ((c : Thread nD τ).loc main_v16_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.RefValue.lean ====
import proofs.«119186_j42846593745221_2_alg».proof.Proof.Gen.ReferenceIdeal.Read
import proofs.«119186_j42846593745221_2_alg».proof.Proof.Spec
import proofs.«119186_j42846593745221_2_alg».proof.Proof.LibConcatBlocks

/-
  The reference program computes the LSTM cell.

  The reference joins x and h side by side into rows of 2048, joins the four weight arrays side by side into
  [2048, 4096] and the four bias vectors end to end into [4096], multiplies, adds the bias row and cuts the result back
  into four [8192, 1024] column bands, one per gate. Read at row p and column 1024·g + q, the product is a sum over
  2048 positions; its first 1024 terms are x(p,k)·W_g(k,q) and its last 1024 terms are h(p,k)·W_g(1024+k,q). So each
  band is that gate's pre-activation, and the rest of the program is the cell's formula entry by entry.
-/

noncomputable section

namespace Cert.ReferenceIdeal.RefValue

open Cert.ReferenceIdeal Cert.ReferenceIdeal.Gen Cert.ReferenceIdeal.Read
open Idealize.ShloMosaic Idealize.ShloMosaic.ValueIdx
open Cert.Lib.ConcatBlocks Cert.Lstm

variable (x0 x1 x2 : (⟨S8192x1024, .f32⟩ : BufTy).Contents (Elt Ideal))
  (x3 x4 x5 x6 : (⟨S2048x1024, .f32⟩ : BufTy).Contents (Elt Ideal))
  (x7 x8 x9 x10 : (⟨S1024, .f32⟩ : BufTy).Contents (Elt Ideal))

/-! ## The three joins at an index -/

/-- The first 1024 positions of a joined row are x's row. -/
theorem v0_lo (j : S8192x2048.Idx) (p : Fin 8192) (k : Fin 1024) (h0 : (j 0).val = p.val) (h1 : (j 1).val = k.val) :
    val_main_v0 (F := Ideal) x0 x1 j = x0 (ix2 p k) :=
  pair_axis1_left x0 x1 concatenates_S8192x1024_S8192x1024_S8192x2048_d1 j p k h0 h1

/-- The last 1024 positions of a joined row are h's row. -/
theorem v0_hi (j : S8192x2048.Idx) (p : Fin 8192) (k : Fin 1024) (h0 : (j 0).val = p.val)
    (h1 : (j 1).val = 1024 + k.val) :
    val_main_v0 (F := Ideal) x0 x1 j = x1 (ix2 p k) :=
  pair_axis1_right x0 x1 concatenates_S8192x1024_S8192x1024_S8192x2048_d1 j p k h0 h1

/-- Columns 0 … 1023 of the joined weights are the first weight array. -/
theorem v1_g0 (j : S2048x4096.Idx) (r : Fin 2048) (q : Fin 1024) (h0 : (j 0).val = r.val) (h1 : (j 1).val = q.val) :
    val_main_v1 (F := Ideal) x3 x4 x5 x6 j = x3 (ix2 r q) :=
  four_axis1_piece0 x3 x4 x5 x6 concatenates_S2048x1024_S2048x1024_S2048x1024_S2048x1024_S2048x4096_d1 j r q h0 h1

/-- Columns 1024 … 2047 are the second. -/
theorem v1_g1 (j : S2048x4096.Idx) (r : Fin 2048) (q : Fin 1024) (h0 : (j 0).val = r.val)
    (h1 : (j 1).val = 1024 + q.val) :
    val_main_v1 (F := Ideal) x3 x4 x5 x6 j = x4 (ix2 r q) :=
  four_axis1_piece1 x3 x4 x5 x6 concatenates_S2048x1024_S2048x1024_S2048x1024_S2048x1024_S2048x4096_d1 j r q h0 h1

/-- Columns 2048 … 3071 are the third. -/
theorem v1_g2 (j : S2048x4096.Idx) (r : Fin 2048) (q : Fin 1024) (h0 : (j 0).val = r.val)
    (h1 : (j 1).val = 2048 + q.val) :
    val_main_v1 (F := Ideal) x3 x4 x5 x6 j = x5 (ix2 r q) :=
  four_axis1_piece2 x3 x4 x5 x6 concatenates_S2048x1024_S2048x1024_S2048x1024_S2048x1024_S2048x4096_d1 j r q h0
    (by omega)

/-- Columns 3072 … 4095 are the fourth. -/
theorem v1_g3 (j : S2048x4096.Idx) (r : Fin 2048) (q : Fin 1024) (h0 : (j 0).val = r.val)
    (h1 : (j 1).val = 3072 + q.val) :
    val_main_v1 (F := Ideal) x3 x4 x5 x6 j = x6 (ix2 r q) :=
  four_axis1_piece3 x3 x4 x5 x6 concatenates_S2048x1024_S2048x1024_S2048x1024_S2048x1024_S2048x4096_d1 j r q h0
    (by omega)

/-- Positions 0 … 1023 of the joined biases are the first bias vector. -/
theorem v2_g0 (j : S4096.Idx) (q : Fin 1024) (h0 : (j 0).val = q.val) :
    val_main_v2 (F := Ideal) x7 x8 x9 x10 j = x7 (ix1 q) :=
  four_axis0_piece0 x7 x8 x9 x10 concatenates_S1024_S1024_S1024_S1024_S4096_d0 j q h0

/-- Positions 1024 … 2047 are the second. -/
theorem v2_g1 (j : S4096.Idx) (q : Fin 1024) (h0 : (j 0).val = 1024 + q.val) :
    val_main_v2 (F := Ideal) x7 x8 x9 x10 j = x8 (ix1 q) :=
  four_axis0_piece1 x7 x8 x9 x10 concatenates_S1024_S1024_S1024_S1024_S4096_d0 j q h0

/-- Positions 2048 … 3071 are the third. -/
theorem v2_g2 (j : S4096.Idx) (q : Fin 1024) (h0 : (j 0).val = 2048 + q.val) :
    val_main_v2 (F := Ideal) x7 x8 x9 x10 j = x9 (ix1 q) :=
  four_axis0_piece2 x7 x8 x9 x10 concatenates_S1024_S1024_S1024_S1024_S4096_d0 j q (by omega)

/-- Positions 3072 … 4095 are the fourth. -/
theorem v2_g3 (j : S4096.Idx) (q : Fin 1024) (h0 : (j 0).val = 3072 + q.val) :
    val_main_v2 (F := Ideal) x7 x8 x9 x10 j = x10 (ix1 q) :=
  four_axis0_piece3 x7 x8 x9 x10 concatenates_S1024_S1024_S1024_S1024_S4096_d0 j q (by omega)

/-! ## The biased product at a gate's column is the gate's pre-activation -/

/-- At row p and column q < 1024: the first gate (weights x3, bias x7). -/
theorem v6_g0 (j : S8192x4096.Idx) (p : Fin 8192) (q : Fin 1024) (h0 : (j 0).val = p.val) (h1 : (j 1).val = q.val) :
    val_main_v6 (F := Ideal) x0 x1 x3 x4 x5 x6 x7 x8 x9 x10 j = gate x0 x1 x3 x7 p q := by
  rw [val_main_v6_apply, val_main_v3_apply, val_main_v5_apply, val_main_v4_apply, Ideal.addf_def]
  refine (congrArg₂ (· + ·) (sum_2048 _) rfl).trans ?_
  unfold gate
  refine congrArg₂ (· + ·) (congrArg₂ (· + ·) (Finset.sum_congr rfl fun k _ => ?_) (Finset.sum_congr rfl fun k _ => ?_)) ?_
  · exact congrArg₂ (· * ·) (v0_lo x0 x1 _ p k h0 rfl) (v1_g0 x3 x4 x5 x6 _ (lo k) q rfl h1)
  · exact congrArg₂ (· * ·) (v0_hi x0 x1 _ p k h0 rfl) (v1_g0 x3 x4 x5 x6 _ (hi k) q rfl h1)
  · exact v2_g0 x7 x8 x9 x10 _ q h1

/-- At row p and column 1024 + q: the second gate (weights x4, bias x8). -/
theorem v6_g1 (j : S8192x4096.Idx) (p : Fin 8192) (q : Fin 1024) (h0 : (j 0).val = p.val)
    (h1 : (j 1).val = 1024 + q.val) :
    val_main_v6 (F := Ideal) x0 x1 x3 x4 x5 x6 x7 x8 x9 x10 j = gate x0 x1 x4 x8 p q := by
  rw [val_main_v6_apply, val_main_v3_apply, val_main_v5_apply, val_main_v4_apply, Ideal.addf_def]
  refine (congrArg₂ (· + ·) (sum_2048 _) rfl).trans ?_
  unfold gate
  refine congrArg₂ (· + ·) (congrArg₂ (· + ·) (Finset.sum_congr rfl fun k _ => ?_) (Finset.sum_congr rfl fun k _ => ?_)) ?_
  · exact congrArg₂ (· * ·) (v0_lo x0 x1 _ p k h0 rfl) (v1_g1 x3 x4 x5 x6 _ (lo k) q rfl h1)
  · exact congrArg₂ (· * ·) (v0_hi x0 x1 _ p k h0 rfl) (v1_g1 x3 x4 x5 x6 _ (hi k) q rfl h1)
  · exact v2_g1 x7 x8 x9 x10 _ q h1

/-- At row p and column 2048 + q: the third gate (weights x5, bias x9). -/
theorem v6_g2 (j : S8192x4096.Idx) (p : Fin 8192) (q : Fin 1024) (h0 : (j 0).val = p.val)
    (h1 : (j 1).val = 2048 + q.val) :
    val_main_v6 (F := Ideal) x0 x1 x3 x4 x5 x6 x7 x8 x9 x10 j = gate x0 x1 x5 x9 p q := by
  rw [val_main_v6_apply, val_main_v3_apply, val_main_v5_apply, val_main_v4_apply, Ideal.addf_def]
  refine (congrArg₂ (· + ·) (sum_2048 _) rfl).trans ?_
  unfold gate
  refine congrArg₂ (· + ·) (congrArg₂ (· + ·) (Finset.sum_congr rfl fun k _ => ?_) (Finset.sum_congr rfl fun k _ => ?_)) ?_
  · exact congrArg₂ (· * ·) (v0_lo x0 x1 _ p k h0 rfl) (v1_g2 x3 x4 x5 x6 _ (lo k) q rfl h1)
  · exact congrArg₂ (· * ·) (v0_hi x0 x1 _ p k h0 rfl) (v1_g2 x3 x4 x5 x6 _ (hi k) q rfl h1)
  · exact v2_g2 x7 x8 x9 x10 _ q h1

/-- At row p and column 3072 + q: the fourth gate (weights x6, bias x10). -/
theorem v6_g3 (j : S8192x4096.Idx) (p : Fin 8192) (q : Fin 1024) (h0 : (j 0).val = p.val)
    (h1 : (j 1).val = 3072 + q.val) :
    val_main_v6 (F := Ideal) x0 x1 x3 x4 x5 x6 x7 x8 x9 x10 j = gate x0 x1 x6 x10 p q := by
  rw [val_main_v6_apply, val_main_v3_apply, val_main_v5_apply, val_main_v4_apply, Ideal.addf_def]
  refine (congrArg₂ (· + ·) (sum_2048 _) rfl).trans ?_
  unfold gate
  refine congrArg₂ (· + ·) (congrArg₂ (· + ·) (Finset.sum_congr rfl fun k _ => ?_) (Finset.sum_congr rfl fun k _ => ?_)) ?_
  · exact congrArg₂ (· * ·) (v0_lo x0 x1 _ p k h0 rfl) (v1_g3 x3 x4 x5 x6 _ (lo k) q rfl h1)
  · exact congrArg₂ (· * ·) (v0_hi x0 x1 _ p k h0 rfl) (v1_g3 x3 x4 x5 x6 _ (hi k) q rfl h1)
  · exact v2_g3 x7 x8 x9 x10 _ q h1

/-! ## The logistic function as the reference spells it -/

/-- One divided by one plus the exponential of the negation, with the ones written as the word 0x3F800000, is the
    logistic function. -/
theorem sigma_eq (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, one_word]
  rfl

/-! ## The four bands and the two results -/

/-- The new cell state, entry by entry. -/
theorem cell_apply (p : Fin 8192) (q : Fin 1024) :
    val_main_v32 (F := Ideal) x0 x1 x2 x3 x4 x5 x6 x7 x8 x9 x10 (ix2 p q) = cellNew x0 x1 x2 x3 x4 x5 x7 x8 x9 p q := by
  rw [val_main_v32_apply, val_main_v30_apply, val_main_v31_apply, val_main_v22_apply, val_main_v16_apply,
    val_main_v23_apply, val_main_v21_apply, val_main_v15_apply, val_main_v20_apply, val_main_v14_apply,
    val_main_v19_apply, val_main_v13_apply, val_main_cst_2_apply, val_main_cst_0_apply, val_main_cst_1_apply,
    val_main_cst_apply, val_main_v18_apply, val_main_v12_apply, val_main_v17_apply, val_main_v11_apply,
    val_main_v8_apply, val_main_v7_apply, val_main_v9_apply,
    v6_g1 x0 x1 x3 x4 x5 x6 x7 x8 x9 x10 _ p q rfl rfl, v6_g0 x0 x1 x3 x4 x5 x6 x7 x8 x9 x10 _ p q rfl rfl,
    v6_g2 x0 x1 x3 x4 x5 x6 x7 x8 x9 x10 _ p q rfl rfl, sigma_eq, sigma_eq]
  rfl

/-- The reference's new cell state is the cell's. -/
theorem cell_eq :
    val_main_v32 (F := Ideal) x0 x1 x2 x3 x4 x5 x6 x7 x8 x9 x10 = Cert.Lstm.cellArr x0 x1 x2 x3 x4 x5 x7 x8 x9 := by
  funext i
  obtain ⟨p, q, rfl⟩ : ∃ (p : Fin 8192) (q : Fin 1024), i = ix2 p q := ⟨i 0, i 1, eq_ix2 i⟩
  exact cell_apply x0 x1 x2 x3 x4 x5 x6 x7 x8 x9 x10 p q

/-- The new hidden state, entry by entry. -/
theorem hid_apply (p : Fin 8192) (q : Fin 1024) :
    val_main_v34 (F := Ideal) x0 x1 x2 x3 x4 x5 x6 x7 x8 x9 x10 (ix2 p q)
      = hidNew x0 x1 x2 x3 x4 x5 x6 x7 x8 x9 x10 p q := by
  rw [val_main_v34_apply, val_main_v33_apply, cell_apply, val_main_v29_apply, val_main_v28_apply, val_main_v27_apply,
    val_main_v26_apply, val_main_cst_4_apply, val_main_cst_3_apply, val_main_v25_apply, val_main_v24_apply,
    val_main_v10_apply, v6_g3 x0 x1 x3 x4 x5 x6 x7 x8 x9 x10 _ p q rfl rfl, sigma_eq]
  rfl

/-- The reference's new hidden state is the cell's. -/
theorem hid_eq :
    val_main_v34 (F := Ideal) x0 x1 x2 x3 x4 x5 x6 x7 x8 x9 x10
      = Cert.Lstm.hidArr x0 x1 x2 x3 x4 x5 x6 x7 x8 x9 x10 := by
  funext i
  obtain ⟨p, q, rfl⟩ : ∃ (p : Fin 8192) (q : Fin 1024), i = ix2 p q := ⟨i 0, i 1, eq_ix2 i⟩
  exact hid_apply x0 x1 x2 x3 x4 x5 x6 x7 x8 x9 x10 p q

end Cert.ReferenceIdeal.RefValue

end
-- ==== Proof.lean ====
/-
  An LSTM cell computed by a Pallas kernel — per block of 512 batch rows, four gates each as x·W_x + h·W_h + b with
  the weight matrices split into the rows that meet x and the rows that meet h and narrowed to bf16, then
  c' = σ(z_f)·c + σ(z_i)·tanh(z_g), h' = σ(z_o)·tanh(c') — against the plain reference [x, h]·[W_i W_f W_g W_o] + b
  split into four gates. On the extended reals a change of float format is the identity, σ is 1/(1 + e^(−t)) in both
  programs, and the two pre-activations differ only in how one sum of 2048 products is grouped (first 1024 terms plus
  last 1024 terms), so the results are equal entry by entry with no appeal to finiteness.

  The five conjuncts: the three frames (each program runs to the end, faults nowhere and leaves its arguments
  unchanged), the idealization's ledger (empty), and the equality of the results of the two idealized programs run
  from memories that agree on the arguments.
-/
import proofs.«119186_j42846593745221_2_alg».proof.Defs
import proofs.«119186_j42846593745221_2_alg».proof.Proof.Gen.Kernel
import proofs.«119186_j42846593745221_2_alg».proof.Proof.Gen.KernelIdeal
import proofs.«119186_j42846593745221_2_alg».proof.Proof.Gen.ReferenceIdeal
import proofs.«119186_j42846593745221_2_alg».proof.Proof.Gen.Pre_finite_inputs
import proofs.«119186_j42846593745221_2_alg».proof.Proof.KernelBody
import proofs.«119186_j42846593745221_2_alg».proof.Proof.KernelValue
import proofs.«119186_j42846593745221_2_alg».proof.Proof.RefValue
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Hand.frame m ρ

/-- The idealized kernel program's frame. -/
theorem frame_ki : Cert.frame_KernelIdeal := fun m ρ _ => Cert.KernelIdeal.Hand.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both idealized programs end with the hidden state and the cell state of the whole-array LSTM cell of the
    arguments: the kernel's blocks tile it, the reference's host operations compute it. -/
theorem algebraic : Cert.algebraic_KernelIdeal_ReferenceIdeal := by
  intro m ρ m' ρ' _ hagree
  refine ⟨fun c => Cert.KernelIdeal.KValue.hidOf m c, fun c => Cert.KernelIdeal.KValue.cellOf m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v34_eq, Cert.ReferenceIdeal.RefValue.hid_eq, h0, h1, h2, h3, h4, h5, h6, h7, h8, h9, h10]
  · obtain ⟨h0, h1, h2, h3, h4, h5, h6, h7, h8, h9, h10⟩ := hagree c
    rw [Cert.ReferenceIdeal.Read.val_main_v32_eq, Cert.ReferenceIdeal.RefValue.cell_eq, h0, h1, h2, h3, h4, h5, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
